-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128x128 .f32) (main_arg9 : FVec F S128 .f32) (main_arg10 : FVec F S128x128 .f32) (main_arg11 : FVec F S128 .f32) (main_arg12 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 65
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000 : Shape := ⟨1, ![50000]⟩
abbrev S50000x1 : Shape := ⟨2, ![50000, 1]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S128x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S128x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000, .f32⟩
  | .hbm, ⟨40, _⟩ => ⟨S50000x1, .f32⟩
  | .hbm, ⟨41, _⟩ => ⟨S_, .f32⟩
  | .hbm, ⟨42, _⟩ => ⟨S50000x1, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000, .f32⟩
  | .hbm, ⟨49, _⟩ => ⟨S50000x1, .f32⟩
  | .hbm, ⟨50, _⟩ => ⟨S_, .f32⟩
  | .hbm, ⟨51, _⟩ => ⟨S50000x1, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x1, .f32⟩
  | .hbm, ⟨57, _⟩ => ⟨S50000x1, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S128x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S128x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x128, .f32⟩
  | .hbm, ⟨103, _⟩ => ⟨S_, .f32⟩
  | .hbm, ⟨104, _⟩ => ⟨S50000x128, .f32⟩
  | .hbm, ⟨105, _⟩ => ⟨S800000x1, .i32⟩
  | .hbm, ⟨106, _⟩ => ⟨S50000x128, .f32⟩
  | .hbm, ⟨107, _⟩ => ⟨S128x128, .f32⟩
  | .hbm, ⟨108, _⟩ => ⟨S50000x128, .f32⟩
  | .hbm, ⟨109, _⟩ => ⟨S1x128, .f32⟩
  | .hbm, ⟨110, _⟩ => ⟨S50000x128, .f32⟩
  | .hbm, ⟨111, _⟩ => ⟨S50000x128, .f32⟩
  | .hbm, ⟨112, _⟩ => ⟨S128x128, .f32⟩
  | .hbm, ⟨113, _⟩ => ⟨S50000x128, .f32⟩
  | .hbm, ⟨114, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_c_6 : Ref sig .tc := ⟨.hbm, 70, rfl⟩
abbrev main_v47 : Ref sig .tc := ⟨.hbm, 71, rfl⟩
abbrev main_v48 : Ref sig .tc := ⟨.hbm, 72, rfl⟩
abbrev main_c_7 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call1_cst : Ref sig .tc := ⟨.hbm, 91, rfl⟩
abbrev main_call1_v0 : Ref sig .tc := ⟨.hbm, 92, rfl⟩
abbrev main_v65 : Ref sig .tc := ⟨.hbm, 93, rfl⟩
abbrev main_c_9 : Ref sig .tc := ⟨.hbm, 94, rfl⟩
abbrev main_v66 : Ref sig .tc := ⟨.hbm, 95, rfl⟩
abbrev main_v67 : Ref sig .tc := ⟨.hbm, 96, rfl⟩
abbrev main_c_10 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_11 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its RESULT kept in view.

  The program is three kernel launches among four stretches of host operations. Its generated frame already follows the
  contents of every buffer from the launch to the return — `W6 m ρ c` is the last of those snapshots — but states only
  that the thirteen arguments end as they began. Here the same launch theorem is applied to the same segments, and the
  final state is read at one more buffer: the result array ends at `W6 m ρ c` of it, which is what the third launch's
  write-backs leave there.
-/
import proofs.«160818_j23210003268198_1_alg».proof.Proof.Gen.KernelIdeal.Frame

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    snapshot's contents of it, and the arguments end unchanged. -/
theorem run_result : θ_run defs (onTc (τ := τ) (main (F := F))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v42 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

/-- The result array is the third launch's sixth window: the last snapshot holds there what that launch's write-backs
    leave, from the contents `V5` it was entered with. -/
theorem result_eq (c : Dev nD) :
    W6 m ρ c (Proc.devRef .tc main_v42) = (dat2 (V5 m ρ) c).arrAt 5 cfg2.N := W6_arr m ρ c 5

end Cert.KernelIdeal.Layers

end
-- ==== Proof.Spec.lean ====
/-
  One GraphSAGE layer, row by row, as plain arithmetic on the extended reals.

  A node's new feature row depends only on that node's aggregated-neighbour row `a`, its own row `x`, and the layer's
  parameters: `conv a x` is `(a · WlT + bl) + x · WrT` (the two weight matrices are given already transposed, as both
  programs hand them to their products); `normed` is the layer normalisation of a row — subtract the mean, scale by
  the reciprocal square root of the mean square of the centred row plus `ε`, then the affine `· g + b`; `relu` is the
  maximum with zero. The three layers of the network are `relu ∘ normed ∘ conv`, `relu ∘ conv` and `conv`, each applied to
  every row of a 50000 × 128 array.

  The constants are kept as the float words the programs print (128.0, ε = f32(1e-5), 0.0): the same word appears on
  both sides of every comparison, so none of them is ever evaluated.
-/
import Idealize.ShloMosaic.PureOps.Ideal
import Idealize.ShloMosaic.Lib.ValueIdx

noncomputable section

namespace Cert.Sage

open Idealize.ShloMosaic Idealize.ShloMosaic.ValueIdx
open scoped BigOperators

/-- A 128 × 128 weight matrix's index type, a length-128 parameter vector's, and the node-feature array's. -/
abbrev Mat : Shape := ⟨2, ![128, 128]⟩
abbrev Par : Shape := ⟨1, ![128]⟩
abbrev Nodes : Shape := ⟨2, ![50000, 128]⟩

/-- Column `c` of `(a · WlT + bl) + x · WrT`: the neighbour product, the bias, then the root product, in that order. -/
def conv (a x : Fin 128 → EReal) (wl : Mat.Idx → EReal) (bl : Par.Idx → EReal) (wr : Mat.Idx → EReal) (c : Fin 128) : EReal :=
  ((∑ k : Fin 128, a k * wl (ix2 k c)) + bl (ix1 c)) + ∑ k : Fin 128, x k * wr (ix2 k c)

/-- A row minus its mean (the sum of its 128 entries divided by 128.0). -/
def centred (h : Fin 128 → EReal) (c : Fin 128) : EReal :=
  h c - Ideal.div (∑ k : Fin 128, h k) (Ideal.ofBits .f32 0x43000000#32)

/-- The layer normalisation of a row: the centred row times `rsqrt (mean of its squares + ε)`, times `g`, plus `b`. -/
def normed (h : Fin 128 → EReal) (g b : Par.Idx → EReal) (c : Fin 128) : EReal :=
  (centred h c
      * Ideal.rsqrt (Ideal.div (∑ k : Fin 128, centred h k * centred h k) (Ideal.ofBits .f32 0x43000000#32)
          + Ideal.ofBits .f32 0x3727C5AC#32))
    * g (ix1 c) + b (ix1 c)

/-- The maximum with the zero word. -/
def relu (v : EReal) : EReal := max v (Ideal.ofBits .f32 0x00000000#32)

/-- Row `r` of a node-feature array. -/
def rowOf (A : Nodes.Idx → EReal) (r : Fin 50000) : Fin 128 → EReal := fun k => A (ix2 r k)

/-- An index's row and column, as numbers below the literal extents. -/
def rowIx (i : Nodes.Idx) : Fin 50000 := ⟨(i 0).val, idx2_lt0 i⟩
def colIx (i : Nodes.Idx) : Fin 128 := ⟨(i 1).val, idx2_lt1 i⟩

/-- The first layer on whole arrays: every row of `relu (normed (conv …))`. -/
def layer0 (A X : Nodes.Idx → EReal) (wl : Mat.Idx → EReal) (bl : Par.Idx → EReal) (wr : Mat.Idx → EReal)
    (g b : Par.Idx → EReal) : Nodes.Idx → EReal :=
  fun i => relu (normed (conv (rowOf A (rowIx i)) (rowOf X (rowIx i)) wl bl wr) g b (colIx i))

/-- The second layer: every row of `relu (conv …)`. -/
def layer1 (A X : Nodes.Idx → EReal) (wl : Mat.Idx → EReal) (bl : Par.Idx → EReal) (wr : Mat.Idx → EReal) :
    Nodes.Idx → EReal :=
  fun i => relu (conv (rowOf A (rowIx i)) (rowOf X (rowIx i)) wl bl wr (colIx i))

/-- The last layer: every row of `conv …`. -/
def layer2 (A X : Nodes.Idx → EReal) (wl : Mat.Idx → EReal) (bl : Par.Idx → EReal) (wr : Mat.Idx → EReal) :
    Nodes.Idx → EReal :=
  fun i => conv (rowOf A (rowIx i)) (rowOf X (rowIx i)) wl bl wr (colIx i)

/-- At an index given by its coordinates the layers read the row and the column back. -/
theorem layer0_ix2 (A X : Nodes.Idx → EReal) (wl : Mat.Idx → EReal) (bl : Par.Idx → EReal) (wr : Mat.Idx → EReal)
    (g b : Par.Idx → EReal) (r : Fin 50000) (c : Fin 128) :
    layer0 A X wl bl wr g b (ix2 r c) = relu (normed (conv (rowOf A r) (rowOf X r) wl bl wr) g b c) := rfl

theorem layer1_ix2 (A X : Nodes.Idx → EReal) (wl : Mat.Idx → EReal) (bl : Par.Idx → EReal) (wr : Mat.Idx → EReal)
    (r : Fin 50000) (c : Fin 128) :
    layer1 A X wl bl wr (ix2 r c) = relu (conv (rowOf A r) (rowOf X r) wl bl wr c) := rfl

theorem layer2_ix2 (A X : Nodes.Idx → EReal) (wl : Mat.Idx → EReal) (bl : Par.Idx → EReal) (wr : Mat.Idx → EReal)
    (r : Fin 50000) (c : Fin 128) :
    layer2 A X wl bl wr (ix2 r c) = conv (rowOf A r) (rowOf X r) wl bl wr c := rfl

end Cert.Sage

end
-- ==== Proof.Blocks.lean ====
/-
  The three kernel bodies' results read at one element.

  Each launch's body loads whole blocks — a 5000 × 128 block `a` of aggregated neighbour rows, the matching block `x` of
  the rows themselves, two 128 × 128 weight matrices (given already transposed), the bias row and, in the first layer, the
  gain and shift rows — and stores one 5000 × 128 block. Every load and the one store go through the whole buffer at
  offset zero, so the stored block is the body's arithmetic applied to the loaded blocks themselves. Read at row `p` and
  lane `q` of the block:

  • each of the two products is the sum, over the 128 contraction coordinates `k`, of entry `(p, k)` of the left operand
    times entry `(k, q)` of the weight matrix (the accumulator is the zero splat, and narrowing to bf16 is the identity on
    extended reals);
  • the bias, gain and shift rows, cast to 1 × 128 and broadcast down the 5000 rows, read their entry `q`;
  • each of the layer normalisation's two lane sums is the sum over the 128 entries of row `p`; kept as a 5000 × 1 column
    and broadcast across the lanes it reads the value of row `p`.

  So the element is, operation for operation and in the same order, the row-wise specification — `conv`, then in the
  first layer `normed`, then in the first two layers `relu` — applied to row `p` of `a` and row `p` of `x`. No arithmetic
  identity is used anywhere: only what each operation reads at an index.
-/
import proofs.«160818_j23210003268198_1_alg».proof.Proof.Gen.KernelIdeal.Frame
import proofs.«160818_j23210003268198_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.ValueIdx Cert.Sage
open scoped BigOperators

/-! ## The contraction at an index -/

/-- The kernels' one contraction: rows of a 5000 × 128 block against columns of a 128 × 128 matrix. -/
abbrev blockDot : DotDims S5000x128 S128x128 S5000x128 := dot_S5000x128_S128x128_S5000x128_1_0_0_1_n_n

/-- The left operand's index at output index `i` and contraction index `k`: row `i 0` … -/
theorem lhs_0 (i : S5000x128.Idx) (k : blockDot.contr.Idx) : (blockDot.lhsIdx i k 0).val = (i 0).val := by
  unfold DotDims.lhsIdx
  rw [dif_neg (show ¬(0 : Fin S5000x128.rank) ∈ blockDot.lhsBatch by decide), dif_pos (show (0 : Fin S5000x128.rank) ∈ blockDot.lhsNonContracting by decide)]
  rfl
/-- … and column the contraction coordinate. -/
theorem lhs_1 (i : S5000x128.Idx) (k : blockDot.contr.Idx) : (blockDot.lhsIdx i k 1).val = (k ⟨0, by decide⟩).val :=
  blockDot.lhsIdx_val_of_single rfl i k
/-- The right operand's index: row the contraction coordinate … -/
theorem rhs_0 (i : S5000x128.Idx) (k : blockDot.contr.Idx) : (blockDot.rhsIdx i k 0).val = (k ⟨0, by decide⟩).val :=
  blockDot.rhsIdx_val_of_single rfl i k
/-- … and column `i 1`. -/
theorem rhs_1 (i : S5000x128.Idx) (k : blockDot.contr.Idx) : (blockDot.rhsIdx i k 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- The product into the zero accumulator, read at `(p, q)`: the sum over `k` of `A (p, k) * W (k, q)`. -/
theorem matmul_ix2 {φ₁ φ₂ : FTy} (A : FVec Ideal S5000x128 φ₁) (W : FVec Ideal S128x128 φ₂) (p : Fin 5000) (q : Fin 128) :
    matmul blockDot none A W (constant S5000x128 .f32 0x00000000#32) (ix2 p q) = ∑ k : Fin 128, A (ix2 p k) * W (ix2 k q) := by
  simp only [matmul]
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_0 _ _
    | ⟨1, _⟩ => exact (lhs_1 _ _).trans hk)
  have er : blockDot.rhsIdx (ix2 p q) ((contrEquiv1 blockDot 128 rfl rfl).symm k) = ix2 k q := funext fun a => Fin.ext (by
    match a with
    | ⟨0, _⟩ => exact (rhs_0 _ _).trans hk
    | ⟨1, _⟩ => exact rhs_1 _ _)
  rw [el, er]

/-! ## Rows and columns broadcast over the block -/

/-- A length-128 row cast to 1 × 128 and broadcast down the rows reads, at `(p, q)`, its entry `q`. -/
theorem row_ix2 (v : FVec Ideal S128 .f32) (h1 : S128.ShapeCasts S1x128) (h2 : S1x128.Broadcasts S5000x128) (p : Fin 5000) (q : Fin 128) :
    broadcastTo S5000x128 (shapeCast S1x128 v h1) h2 (ix2 p q) = v (ix1 q) :=
  (broadcastTo_1b_ab_apply _ h2 p q).trans (shapeCast_a_1a_apply v h1 0 q)

/-- The sum over the lanes of a row: a reduction over axis 1 read at row `p`. -/
theorem rowSum_ix1 (v : FVec Ideal S5000x128 .f32) (h : S5000x128.Reduces [1] S5000) (hφ : FKind.Formats .f32)
    (hacc : (0x00000000#32 : BitVec (FTy.bits .f32)) = FKind.add.neutral .f32 hφ) (p : Fin 5000) :
    multiReduction (F := Ideal) .add [1] S5000 v 0x00000000#32 h hφ hacc (ix1 p) = ∑ k : Fin 128, v (ix2 p k) := by
  refine (Ideal.multiReduction_add_single v 0x00000000#32 h hφ hacc (ix1 p)).trans ?_
  refine Finset.sum_congr rfl fun k _ => congrArg v ?_
  funext c
  refine Fin.ext ?_
  match c with
  | ⟨0, _⟩ => rfl
  | ⟨1, _⟩ => rfl

/-- A length-5000 vector cast to a 5000 × 1 column reads, at `(p, u)`, the vector at `p`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row value kept as a column and spread over the lanes reads, at `(p, q)`, the value of row `p`. -/
theorem col_ix2 (w : FVec Ideal S5000x1 .f32) (h : S5000x1.Broadcasts S5000x128) (p : Fin 5000) (q : Fin 128) :
    broadcastTo S5000x128 w h (ix2 p q) = w (ix2 p (0 : Fin 1)) :=
  broadcastTo_a1_ab_apply w h p q

/-! ## The part the three bodies share -/

/-- The part the three bodies share: the neighbour product, plus the bias row, plus the root product. -/
def hpre (a x : FVec Ideal S5000x128 .f32) (wl wr : FVec Ideal S128x128 .f32) (bl : FVec Ideal S128 .f32) : FVec Ideal S5000x128 .f32 :=
  addf (addf (matmul blockDot none (truncf .bf16 a bitsLt_bf16_f32) (truncf .bf16 wl bitsLt_bf16_f32) (constant S5000x128 .f32 0x00000000#32))
      (broadcastTo S5000x128 (shapeCast S1x128 bl shapeCasts_S128_S1x128) broadcasts_S1x128_S5000x128))
    (matmul blockDot none (truncf .bf16 x bitsLt_bf16_f32) (truncf .bf16 wr bitsLt_bf16_f32) (constant S5000x128 .f32 0x00000000#32))

/-- At `(p, q)` it is column `q` of the specification's `conv` of row `p` of `a` and row `p` of `x`. -/
theorem hpre_ix2 (a x : FVec Ideal S5000x128 .f32) (wl wr : FVec Ideal S128x128 .f32) (bl : FVec Ideal S128 .f32) (p : Fin 5000) (q : Fin 128) :
    hpre a x wl wr bl (ix2 p q) = conv (fun k => a (ix2 p k)) (fun k => x (ix2 p k)) wl bl wr q := by
  unfold hpre conv
  rw [addf_apply, addf_apply, matmul_ix2, matmul_ix2, row_ix2]
  rfl

/-! ## The last layer's body -/

/-- The last layer's stored value is the shared part (the casts to the same shape are the identity). -/
theorem k2_pay1_eq (a x : Vec Ideal S5000x128 .f32) (wl wr : Vec Ideal S128x128 .f32) (bl : Vec Ideal S128 .f32) :
    k2_pay1 (F := Ideal) a x wl wr bl = hpre a x wl wr bl := by
  have e : k2_pay1 (F := Ideal) a x wl wr bl
      = hpre (shapeCast S5000x128 a shapeCasts_S5000x128_S5000x128) (shapeCast S5000x128 x shapeCasts_S5000x128_S5000x128)
          (shapeCast S128x128 wl shapeCasts_S128x128_S128x128) (shapeCast S128x128 wr shapeCasts_S128x128_S128x128) bl := rfl
  rw [e, shapeCast_self, shapeCast_self, shapeCast_self, shapeCast_self]

/-- The zero offsets of a rank-2 and of a rank-1 whole-buffer access, however they are spelt. -/
theorem offs2_zero : (![0, 0] : Fin 2 → Nat) = fun _ => 0 := funext fun a => by fin_cases a <;> rfl
theorem offs1_zero : (![0] : Fin 1 → Nat) = fun _ => 0 := funext fun a => by fin_cases a <;> rfl

/-- The last layer's block at `(p, q)`. -/
theorem block2 (a x : Vec Ideal S5000x128 .f32) (wl : Vec Ideal S128x128 .f32) (bl : Vec Ideal S128 .f32) (wr : Vec Ideal S128x128 .f32)
    (p : Fin 5000) (q : Fin 128) :
    out2_5 (F := Ideal) a x wl bl wr (ix2 p q) = conv (fun k => a (ix2 p k)) (fun k => x (ix2 p k)) wl bl wr q := by
  unfold out2_5
  rw [View.canon_unit_zero offs2_zero]
  simp only [View.ld_unit_zero (S := S5000x128) offs2_zero, View.ld_unit_zero (S := S128x128) offs2_zero, View.ld_unit_zero (S := S128) offs1_zero]
  rw [k2_pay1_eq]
  exact hpre_ix2 a x wl wr bl p q

/-! ## The second layer's body -/

/-- The second layer's stored value is the maximum of the shared part with the zero splat. -/
theorem k1_pay1_eq (a x : Vec Ideal S5000x128 .f32) (wl wr : Vec Ideal S128x128 .f32) (bl : Vec Ideal S128 .f32) :
    k1_pay1 (F := Ideal) a x wl wr bl
      = maximumf (hpre a x wl wr bl) (broadcast S5000x128 (Scalar.ofBits (F := Ideal) .f32 0x00000000#32)) := by
  have e : k1_pay1 (F := Ideal) a x wl wr bl
      = maximumf (hpre (shapeCast S5000x128 a shapeCasts_S5000x128_S5000x128) (shapeCast S5000x128 x shapeCasts_S5000x128_S5000x128)
          (shapeCast S128x128 wl shapeCasts_S128x128_S128x128) (shapeCast S128x128 wr shapeCasts_S128x128_S128x128) bl)
          (broadcast S5000x128 (Scalar.ofBits (F := Ideal) .f32 0x00000000#32)) := rfl
  rw [e, shapeCast_self, shapeCast_self, shapeCast_self, shapeCast_self]

/-- The second layer's block at `(p, q)`. -/
theorem block1 (a x : Vec Ideal S5000x128 .f32) (wl : Vec Ideal S128x128 .f32) (bl : Vec Ideal S128 .f32) (wr : Vec Ideal S128x128 .f32)
    (p : Fin 5000) (q : Fin 128) :
    out1_5 (F := Ideal) a x wl bl wr (ix2 p q) = relu (conv (fun k => a (ix2 p k)) (fun k => x (ix2 p k)) wl bl wr q) := by
  unfold out1_5
  rw [View.canon_unit_zero offs2_zero]
  simp only [View.ld_unit_zero (S := S5000x128) offs2_zero, View.ld_unit_zero (S := S128x128) offs2_zero, View.ld_unit_zero (S := S128) offs1_zero]
  rw [k1_pay1_eq]
  exact congrArg relu (hpre_ix2 a x wl wr bl p q)

/-! ## The first layer's body: the layer normalisation -/

/-- The per-row mean, kept as a 5000 × 1 column: the lane sum divided by 128.0. -/
def meanCol (H : FVec Ideal S5000x128 .f32) : FVec Ideal S5000x1 .f32 :=
  divf (shapeCast S5000x1 (multiReduction (F := Ideal) .add [1] S5000 H 0x00000000#32 reduces_S5000x128_S5000 (.inl rfl) rfl)
      shapeCasts_S5000_S5000x1)
    (broadcast S5000x1 (Scalar.ofBits (F := Ideal) .f32 0x43000000#32))

/-- At row `p` it is the sum of the row's 128 entries divided by the word of 128.0. -/
theorem meanCol_ix2 (H : FVec Ideal S5000x128 .f32) (p : Fin 5000) (u : Fin 1) :
    meanCol H (ix2 p u) = Ideal.div (∑ k : Fin 128, H (ix2 p k)) (Ideal.ofBits .f32 0x43000000#32) := by
  unfold meanCol
  rw [divf_apply, shapeCast_a_a1_apply]
  exact congrArg (fun s => Ideal.div s (Ideal.ofBits .f32 0x43000000#32)) (rowSum_ix1 H _ _ _ p)

/-- A block minus its rows' means. -/
def cen (H : FVec Ideal S5000x128 .f32) : FVec Ideal S5000x128 .f32 :=
  subf H (broadcastTo S5000x128 (meanCol H) broadcasts_S5000x1_S5000x128)

/-- At `(p, q)` it is the specification's centred row `p` at `q`. -/
theorem cen_ix2 (H : FVec Ideal S5000x128 .f32) (p : Fin 5000) (q : Fin 128) :
    cen H (ix2 p q) = centred (fun k => H (ix2 p k)) q := by
  unfold cen centred
  rw [subf_apply, col_ix2, meanCol_ix2]

/-- The per-row scale: the reciprocal square root of the mean of the squares plus ε, as a column. -/
def scaleCol (C : FVec Ideal S5000x128 .f32) : FVec Ideal S5000x1 .f32 :=
  rsqrt (addf (meanCol (mulf C C)) (broadcast S5000x1 (Scalar.ofBits (F := Ideal) .f32 0x3727C5AC#32)))

/-- At row `p`: `rsqrt` of (the sum of the row's squares over 128.0, plus ε). -/
theorem scaleCol_ix2 (C : FVec Ideal S5000x128 .f32) (p : Fin 5000) (u : Fin 1) :
    scaleCol C (ix2 p u)
      = Ideal.rsqrt (Ideal.div (∑ k : Fin 128, C (ix2 p k) * C (ix2 p k)) (Ideal.ofBits .f32 0x43000000#32)
          + Ideal.ofBits .f32 0x3727C5AC#32) := by
  unfold scaleCol
  show Ideal.rsqrt (meanCol (mulf C C) (ix2 p u) + _) = _
  rw [meanCol_ix2]
  rfl

/-- The normalised block before the shift: centred, scaled per row, times the gain row. -/
def lnorm (H : FVec Ideal S5000x128 .f32) (g : FVec Ideal S128 .f32) : FVec Ideal S5000x128 .f32 :=
  mulf (mulf (cen H) (broadcastTo S5000x128 (scaleCol (cen H)) broadcasts_S5000x1_S5000x128))
    (broadcastTo S5000x128 (shapeCast S1x128 g shapeCasts_S128_S1x128) broadcasts_S1x128_S5000x128)

/-- At `(p, q)`: the centred entry, times the row's scale, times the gain's entry `q`. -/
theorem lnorm_ix2 (H : FVec Ideal S5000x128 .f32) (g : FVec Ideal S128 .f32) (p : Fin 5000) (q : Fin 128) :
    lnorm H g (ix2 p q)
      = (centred (fun k => H (ix2 p k)) q
          * Ideal.rsqrt (Ideal.div (∑ k : Fin 128, centred (fun k => H (ix2 p k)) k * centred (fun k => H (ix2 p k)) k)
              (Ideal.ofBits .f32 0x43000000#32) + Ideal.ofBits .f32 0x3727C5AC#32))
        * g (ix1 q) := by
  unfold lnorm
  rw [mulf_apply, mulf_apply, col_ix2, scaleCol_ix2, row_ix2, cen_ix2]
  have e : ∀ k : Fin 128, cen H (ix2 p k) = centred (fun k => H (ix2 p k)) k := fun k => cen_ix2 H p k
  rw [Finset.sum_congr rfl fun k _ => by rw [e k]]

/-- The first layer's normalised value is `lnorm` of the shared part (the casts to the same shape are the identity). -/
theorem k0_pay2_eq (a x : Vec Ideal S5000x128 .f32) (wl wr : Vec Ideal S128x128 .f32) (bl g : Vec Ideal S128 .f32) :
    k0_pay2 (F := Ideal) a x wl wr bl g = lnorm (hpre a x wl wr bl) g := by
  have e : k0_pay2 (F := Ideal) a x wl wr bl g
      = lnorm (hpre (shapeCast S5000x128 a shapeCasts_S5000x128_S5000x128) x
          (shapeCast S128x128 wl shapeCasts_S128x128_S128x128) (shapeCast S128x128 wr shapeCasts_S128x128_S128x128) bl) g := rfl
  rw [e, shapeCast_self, shapeCast_self, shapeCast_self]

/-- The first layer's block at `(p, q)`. -/
theorem block0 (a x : Vec Ideal S5000x128 .f32) (wl : Vec Ideal S128x128 .f32) (bl : Vec Ideal S128 .f32) (wr : Vec Ideal S128x128 .f32)
    (g b : Vec Ideal S128 .f32) (p : Fin 5000) (q : Fin 128) :
    out0_7 (F := Ideal) a x wl bl wr g b (ix2 p q)
      = relu (normed (conv (fun k => a (ix2 p k)) (fun k => x (ix2 p k)) wl bl wr) g b q) := by
  unfold out0_7
  rw [View.canon_unit_zero offs2_zero]
  simp only [View.ld_unit_zero (S := S5000x128) offs2_zero, View.ld_unit_zero (S := S128x128) offs2_zero, View.ld_unit_zero (S := S128) offs1_zero]
  show relu (k0_pay2 (F := Ideal) a x wl wr bl g (ix2 p q) + k0_pay3 (F := Ideal) b (ix2 p q)) = _
  have e3 : k0_pay3 (F := Ideal) b (ix2 p q) = b (ix1 q) := row_ix2 b shapeCasts_S128_S1x128 broadcasts_S1x128_S5000x128 p q
  have hc : (fun k => hpre a x wl wr bl (ix2 p k)) = conv (fun k => a (ix2 p k)) (fun k => x (ix2 p k)) wl bl wr :=
    funext fun k => hpre_ix2 a x wl wr bl p k
  rw [k0_pay2_eq, lnorm_ix2, e3, hc]
  rfl

end Cert.KernelIdeal.Blocks
end
-- ==== Proof.Arrays.lean ====
/-
  From the ten row blocks of each launch to its whole result array.

  Each of the three launches runs its body at ten grid points. At point `t` the two row windows hold rows
  `5000 t … 5000 t + 4999` of their arrays (the aggregated neighbour rows and the rows themselves), every parameter
  window holds its one block, which is the whole parameter array, and the point writes rows `5000 t …` of the result
  back. The body's block is, row by row, the layer's row function of the same row of the two inputs (the block
  lemmas), so what point `t` writes is block `t` of the layer applied to the WHOLE arrays the launch was entered with;
  the ten blocks tile the 50000 rows, one point per row block, so the result array ends as that whole-array layer.
  Everything is stated for arbitrary entry contents `V`: the run instantiates it at each launch's own.
-/
import proofs.«160818_j23210003268198_1_alg».proof.Proof.Blocks
import proofs.«160818_j23210003268198_1_alg».proof.Proof.Spec
import Idealize.ShloMosaic.Lib.Pipeline.Value
import Idealize.ShloMosaic.Lib.ValueIdx

set_option maxRecDepth 16384

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

/-! ## Launch 0: ten blocks of 5000 rows -/

/-- The printed index maps, decided once over the grid: at point `t` the two row windows and the output window sit at
    row block `t`, every parameter window at its one block. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 1) = 0
    ∧ win0_7.index t (0 : Fin 2) = t.val
    ∧ win0_7.index t (1 : Fin 2) = 0 :=
  (by decide +kernel : ∀ t : Fin grid0.N, _)

/-- Row `p` of window 0's block at point `t` is row `5000 t + p` of its array as the launch finds it. -/
theorem rows0_0 (c : Dev nD) (t : Fin cfg0.N) (p : Fin 5000) (j : Fin 128) (r : Fin 50000) (hr : r.val = 5000 * t.val + p.val) :
    (iblk0 V c 0 t : Vec Ideal S5000x128 .f32) (ix2 p j) = (V c main_v19 : S50000x128.Idx → EReal) (ix2 r j) := by
  obtain ⟨r00, r01, -, -, -, -, -, -, -, -, -, -, -⟩ := idx0 t
  unfold iblk0
  rw [View.read_apply]
  show V c main_v19 _ = V c main_v19 _
  congr 1
  funext a
  apply Fin.ext
  match a with
  | ⟨0, _⟩ => show win0_0.index t 0 * 5000 + 1 * p.val = r.val; rw [r00, hr]; omega
  | ⟨1, _⟩ => show win0_0.index t 1 * 128 + 1 * j.val = j.val; rw [r01]; omega

/-- Row `p` of window 1's block at point `t` is row `5000 t + p` of its array as the launch finds it. -/
theorem rows0_1 (c : Dev nD) (t : Fin cfg0.N) (p : Fin 5000) (j : Fin 128) (r : Fin 50000) (hr : r.val = 5000 * t.val + p.val) :
    (iblk0 V c 1 t : Vec Ideal S5000x128 .f32) (ix2 p j) = (V c main_arg0 : S50000x128.Idx → EReal) (ix2 r j) := by
  obtain ⟨-, -, r10, r11, -, -, -, -, -, -, -, -, -⟩ := idx0 t
  unfold iblk0
  rw [View.read_apply]
  show V c main_arg0 _ = V c main_arg0 _
  congr 1
  funext a
  apply Fin.ext
  match a with
  | ⟨0, _⟩ => show win0_1.index t 0 * 5000 + 1 * p.val = r.val; rw [r10, hr]; omega
  | ⟨1, _⟩ => show win0_1.index t 1 * 128 + 1 * j.val = j.val; rw [r11]; omega

/-- Window 2's one block is its whole array. -/
theorem whole0_2 (c : Dev nD) (t : Fin cfg0.N) :
    (iblk0 V c 2 t : Vec Ideal S128x128 .f32) = (V c main_v4 : S128x128.Idx → EReal) := by
  obtain ⟨-, -, -, -, w20, w21, -, -, -, -, -, -, -⟩ := idx0 t
  funext y
  unfold iblk0
  rw [View.read_apply]
  show V c main_v4 _ = V c main_v4 _
  congr 1
  funext a
  apply Fin.ext
  match a with
  | ⟨0, _⟩ => show win0_2.index t 0 * 128 + 1 * (y 0).val = (y 0).val; rw [w20]; omega
  | ⟨1, _⟩ => show win0_2.index t 1 * 128 + 1 * (y 1).val = (y 1).val; rw [w21]; omega

/-- Window 3's one block is its whole array. -/
theorem whole0_3 (c : Dev nD) (t : Fin cfg0.N) :
    (iblk0 V c 3 t : Vec Ideal S128 .f32) = (V c main_arg3 : S128.Idx → EReal) := by
  obtain ⟨-, -, -, -, -, -, w30, -, -, -, -, -, -⟩ := idx0 t
  funext y
  unfold iblk0
  rw [View.read_apply]
  show V c main_arg3 _ = V c main_arg3 _
  congr 1
  funext a
  apply Fin.ext
  match a with
  | ⟨0, _⟩ => show win0_3.index t 0 * 128 + 1 * (y 0).val = (y 0).val; rw [w30]; omega

/-- Window 4's one block is its whole array. -/
theorem whole0_4 (c : Dev nD) (t : Fin cfg0.N) :
    (iblk0 V c 4 t : Vec Ideal S128x128 .f32) = (V c main_v5 : S128x128.Idx → EReal) := by
  obtain ⟨-, -, -, -, -, -, -, w40, w41, -, -, -, -⟩ := idx0 t
  funext y
  unfold iblk0
  rw [View.read_apply]
  show V c main_v5 _ = V c main_v5 _
  congr 1
  funext a
  apply Fin.ext
  match a with
  | ⟨0, _⟩ => show win0_4.index t 0 * 128 + 1 * (y 0).val = (y 0).val; rw [w40]; omega
  | ⟨1, _⟩ => show win0_4.index t 1 * 128 + 1 * (y 1).val = (y 1).val; rw [w41]; omega

/-- Window 5's one block is its whole array. -/
theorem whole0_5 (c : Dev nD) (t : Fin cfg0.N) :
    (iblk0 V c 5 t : Vec Ideal S128 .f32) = (V c main_arg11 : S128.Idx → EReal) := by
  obtain ⟨-, -, -, -, -, -, -, -, -, w50, -, -, -⟩ := idx0 t
  funext y
  unfold iblk0
  rw [View.read_apply]
  show V c main_arg11 _ = V c main_arg11 _
  congr 1
  funext a
  apply Fin.ext
  match a with
  | ⟨0, _⟩ => show win0_5.index t 0 * 128 + 1 * (y 0).val = (y 0).val; rw [w50]; omega

/-- Window 6's one block is its whole array. -/
theorem whole0_6 (c : Dev nD) (t : Fin cfg0.N) :
    (iblk0 V c 6 t : Vec Ideal S128 .f32) = (V c main_arg12 : S128.Idx → EReal) := by
  obtain ⟨-, -, -, -, -, -, -, -, -, -, w60, -, -⟩ := idx0 t
  funext y
  unfold iblk0
  rw [View.read_apply]
  show V c main_arg12 _ = V c main_arg12 _
  congr 1
  funext a
  apply Fin.ext
  match a with
  | ⟨0, _⟩ => show win0_6.index t 0 * 128 + 1 * (y 0).val = (y 0).val; rw [w60]; omega

/-- What point `t` writes back is block `t` of the layer applied to the arrays the launch finds: row `p` of the
    block is the layer's row `5000 t + p`, a function of the same row of the two row arrays and of the parameters. -/
theorem flushed0 (c : Dev nD) (t : Fin cfg0.N) :
    (dat0 V c).flushed 7 t = ((cfg0.win 7).blk t).view.read (Elt Ideal)
      (layer0 (V c main_v19) (V c main_arg0) (V c main_v4) (V c main_arg3) (V c main_v5) (V c main_arg11) (V c main_arg12)) := by
  show (cfg0.win 7).cut (grid0.coords t) ((dat0 V c).after 7 t) = _
  rw [after0_7]
  have hN : cfg0.N = 10 := N_0
  have ht : t.val < 10 := by have := t.isLt; omega
  obtain ⟨-, -, -, -, -, -, -, -, -, -, -, o0, o1⟩ := idx0 t
  funext y
  obtain ⟨p, q, rfl⟩ : ∃ (p : Fin 5000) (q : Fin 128), y = ix2 p q := ⟨y 0, y 1, eq_ix2 y⟩
  refine (Cert.KernelIdeal.Blocks.block0 (iblk0 V c 0 t) (iblk0 V c 1 t) (iblk0 V c 2 t) (iblk0 V c 3 t) (iblk0 V c 4 t) (iblk0 V c 5 t) (iblk0 V c 6 t) p q).trans ?_
  rw [View.read_apply]
  have hemb : ((cfg0.win 7).blk t).view.emb (ix2 p q) = ix2 (⟨5000 * t.val + p.val, by have := p.isLt; omega⟩ : Fin 50000) q := by
    funext a
    apply Fin.ext
    match a with
    | ⟨0, _⟩ => show win0_7.index t 0 * 5000 + 1 * p.val = 5000 * t.val + p.val; rw [o0]; omega
    | ⟨1, _⟩ => show win0_7.index t 1 * 128 + 1 * q.val = q.val; rw [o1]; omega
  rw [hemb, layer0_ix2, whole0_2 V c t, whole0_3 V c t, whole0_4 V c t, whole0_5 V c t, whole0_6 V c t]
  have ha : (fun j : Fin 128 => (iblk0 V c 0 t : Vec Ideal S5000x128 .f32) (ix2 p j))
      = rowOf (V c main_v19) ⟨5000 * t.val + p.val, by have := p.isLt; omega⟩ := funext fun j => rows0_0 V c t p j _ rfl
  have hx : (fun j : Fin 128 => (iblk0 V c 1 t : Vec Ideal S5000x128 .f32) (ix2 p j))
      = rowOf (V c main_arg0) ⟨5000 * t.val + p.val, by have := p.isLt; omega⟩ := funext fun j => rows0_1 V c t p j _ rfl
  rw [ha, hx]
  exact (cast_eq _ _).symm

/-- An index of the result array lies in point `t`'s block iff each coordinate lies in the block's range. -/
theorem mem_blk0 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v20).slice (win0_7.rect t)).set ↔ _
  rw [View.set_slice_whole, Rect.mem_set_unit]
  exact Iff.rfl

/-- Every row is written back by exactly the point of its row block, `row / 5000`. -/
theorem cover0 (i : S50000x128.Idx) : ∃ t : Fin cfg0.N, (cfg0.win 7).flush t = true ∧ i ∈ ((cfg0.win 7).blk t).view.set := by
  have hi0 : (i 0).val < 50000 := idx2_lt0 i
  have hi1 : (i 1).val < 128 := idx2_lt1 i
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, -, o0, o1⟩ := idx0 t
  refine ⟨t, flush0_7 t, ?_⟩
  rw [mem_blk0]
  intro a
  match a with
  | ⟨0, _⟩ => show win0_7.index t 0 * 5000 ≤ (i 0).val ∧ (i 0).val < win0_7.index t 0 * 5000 + 5000; rw [o0, ht]; omega
  | ⟨1, _⟩ => show win0_7.index t 1 * 128 ≤ (i 1).val ∧ (i 1).val < win0_7.index t 1 * 128 + 128; rw [o1]; omega

/-- So the launch leaves in its result array the layer applied to the arrays it was entered with. -/
theorem final0 (c : Dev nD) : (dat0 V c).arrAt 7 cfg0.N
    = layer0 (V c main_v19) (V c main_arg0) (V c main_v4) (V c main_arg3) (V c main_v5) (V c main_arg11) (V c main_arg12) :=
  (dat0 V c).arrAt_eq_of_cover 7 _ (fun t _ => flushed0 V c t) cover0

/-! ## Launch 1: ten blocks of 5000 rows -/

/-- The printed index maps, decided once over the grid: at point `t` the two row windows and the output window sit at
    row block `t`, every parameter window at its one block. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- Row `p` of window 0's block at point `t` is row `5000 t + p` of its array as the launch finds it. -/
theorem rows1_0 (c : Dev nD) (t : Fin cfg1.N) (p : Fin 5000) (j : Fin 128) (r : Fin 50000) (hr : r.val = 5000 * t.val + p.val) :
    (iblk1 V c 0 t : Vec Ideal S5000x128 .f32) (ix2 p j) = (V c main_v30 : S50000x128.Idx → EReal) (ix2 r j) := by
  obtain ⟨r00, r01, -, -, -, -, -, -, -, -, -⟩ := idx1 t
  unfold iblk1
  rw [View.read_apply]
  show V c main_v30 _ = V c main_v30 _
  congr 1
  funext a
  apply Fin.ext
  match a with
  | ⟨0, _⟩ => show win1_0.index t 0 * 5000 + 1 * p.val = r.val; rw [r00, hr]; omega
  | ⟨1, _⟩ => show win1_0.index t 1 * 128 + 1 * j.val = j.val; rw [r01]; omega

/-- Row `p` of window 1's block at point `t` is row `5000 t + p` of its array as the launch finds it. -/
theorem rows1_1 (c : Dev nD) (t : Fin cfg1.N) (p : Fin 5000) (j : Fin 128) (r : Fin 50000) (hr : r.val = 5000 * t.val + p.val) :
    (iblk1 V c 1 t : Vec Ideal S5000x128 .f32) (ix2 p j) = (V c main_v20 : S50000x128.Idx → EReal) (ix2 r j) := by
  obtain ⟨-, -, r10, r11, -, -, -, -, -, -, -⟩ := idx1 t
  unfold iblk1
  rw [View.read_apply]
  show V c main_v20 _ = V c main_v20 _
  congr 1
  funext a
  apply Fin.ext
  match a with
  | ⟨0, _⟩ => show win1_1.index t 0 * 5000 + 1 * p.val = r.val; rw [r10, hr]; omega
  | ⟨1, _⟩ => show win1_1.index t 1 * 128 + 1 * j.val = j.val; rw [r11]; omega

/-- Window 2's one block is its whole array. -/
theorem whole1_2 (c : Dev nD) (t : Fin cfg1.N) :
    (iblk1 V c 2 t : Vec Ideal S128x128 .f32) = (V c main_v6 : S128x128.Idx → EReal) := by
  obtain ⟨-, -, -, -, w20, w21, -, -, -, -, -⟩ := idx1 t
  funext y
  unfold iblk1
  rw [View.read_apply]
  show V c main_v6 _ = V c main_v6 _
  congr 1
  funext a
  apply Fin.ext
  match a with
  | ⟨0, _⟩ => show win1_2.index t 0 * 128 + 1 * (y 0).val = (y 0).val; rw [w20]; omega
  | ⟨1, _⟩ => show win1_2.index t 1 * 128 + 1 * (y 1).val = (y 1).val; rw [w21]; omega

/-- Window 3's one block is its whole array. -/
theorem whole1_3 (c : Dev nD) (t : Fin cfg1.N) :
    (iblk1 V c 3 t : Vec Ideal S128 .f32) = (V c main_arg6 : S128.Idx → EReal) := by
  obtain ⟨-, -, -, -, -, -, w30, -, -, -, -⟩ := idx1 t
  funext y
  unfold iblk1
  rw [View.read_apply]
  show V c main_arg6 _ = V c main_arg6 _
  congr 1
  funext a
  apply Fin.ext
  match a with
  | ⟨0, _⟩ => show win1_3.index t 0 * 128 + 1 * (y 0).val = (y 0).val; rw [w30]; omega

/-- Window 4's one block is its whole array. -/
theorem whole1_4 (c : Dev nD) (t : Fin cfg1.N) :
    (iblk1 V c 4 t : Vec Ideal S128x128 .f32) = (V c main_v7 : S128x128.Idx → EReal) := by
  obtain ⟨-, -, -, -, -, -, -, w40, w41, -, -⟩ := idx1 t
  funext y
  unfold iblk1
  rw [View.read_apply]
  show V c main_v7 _ = V c main_v7 _
  congr 1
  funext a
  apply Fin.ext
  match a with
  | ⟨0, _⟩ => show win1_4.index t 0 * 128 + 1 * (y 0).val = (y 0).val; rw [w40]; omega
  | ⟨1, _⟩ => show win1_4.index t 1 * 128 + 1 * (y 1).val = (y 1).val; rw [w41]; omega

/-- What point `t` writes back is block `t` of the layer applied to the arrays the launch finds: row `p` of the
    block is the layer's row `5000 t + p`, a function of the same row of the two row arrays and of the parameters. -/
theorem flushed1 (c : Dev nD) (t : Fin cfg1.N) :
    (dat1 V c).flushed 5 t = ((cfg1.win 5).blk t).view.read (Elt Ideal)
      (layer1 (V c main_v30) (V c main_v20) (V c main_v6) (V c main_arg6) (V c main_v7)) := by
  show (cfg1.win 5).cut (grid1.coords t) ((dat1 V c).after 5 t) = _
  rw [after1_5]
  have hN : cfg1.N = 10 := N_1
  have ht : t.val < 10 := by have := t.isLt; omega
  obtain ⟨-, -, -, -, -, -, -, -, -, o0, o1⟩ := idx1 t
  funext y
  obtain ⟨p, q, rfl⟩ : ∃ (p : Fin 5000) (q : Fin 128), y = ix2 p q := ⟨y 0, y 1, eq_ix2 y⟩
  refine (Cert.KernelIdeal.Blocks.block1 (iblk1 V c 0 t) (iblk1 V c 1 t) (iblk1 V c 2 t) (iblk1 V c 3 t) (iblk1 V c 4 t) p q).trans ?_
  rw [View.read_apply]
  have hemb : ((cfg1.win 5).blk t).view.emb (ix2 p q) = ix2 (⟨5000 * t.val + p.val, by have := p.isLt; omega⟩ : Fin 50000) q := by
    funext a
    apply Fin.ext
    match a with
    | ⟨0, _⟩ => show win1_5.index t 0 * 5000 + 1 * p.val = 5000 * t.val + p.val; rw [o0]; omega
    | ⟨1, _⟩ => show win1_5.index t 1 * 128 + 1 * q.val = q.val; rw [o1]; omega
  rw [hemb, layer1_ix2, whole1_2 V c t, whole1_3 V c t, whole1_4 V c t]
  have ha : (fun j : Fin 128 => (iblk1 V c 0 t : Vec Ideal S5000x128 .f32) (ix2 p j))
      = rowOf (V c main_v30) ⟨5000 * t.val + p.val, by have := p.isLt; omega⟩ := funext fun j => rows1_0 V c t p j _ rfl
  have hx : (fun j : Fin 128 => (iblk1 V c 1 t : Vec Ideal S5000x128 .f32) (ix2 p j))
      = rowOf (V c main_v20) ⟨5000 * t.val + p.val, by have := p.isLt; omega⟩ := funext fun j => rows1_1 V c t p j _ rfl
  rw [ha, hx]
  exact (cast_eq _ _).symm

/-- An index of the result array lies in point `t`'s block iff each coordinate lies in the block's range. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v31).slice (win1_5.rect t)).set ↔ _
  rw [View.set_slice_whole, Rect.mem_set_unit]
  exact Iff.rfl

/-- Every row is written back by exactly the point of its row block, `row / 5000`. -/
theorem cover1 (i : S50000x128.Idx) : ∃ t : Fin cfg1.N, (cfg1.win 5).flush t = true ∧ i ∈ ((cfg1.win 5).blk t).view.set := by
  have hi0 : (i 0).val < 50000 := idx2_lt0 i
  have hi1 : (i 1).val < 128 := idx2_lt1 i
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, o0, o1⟩ := idx1 t
  refine ⟨t, flush1_5 t, ?_⟩
  rw [mem_blk1]
  intro a
  match a with
  | ⟨0, _⟩ => show win1_5.index t 0 * 5000 ≤ (i 0).val ∧ (i 0).val < win1_5.index t 0 * 5000 + 5000; rw [o0, ht]; omega
  | ⟨1, _⟩ => show win1_5.index t 1 * 128 ≤ (i 1).val ∧ (i 1).val < win1_5.index t 1 * 128 + 128; rw [o1]; omega

/-- So the launch leaves in its result array the layer applied to the arrays it was entered with. -/
theorem final1 (c : Dev nD) : (dat1 V c).arrAt 5 cfg1.N
    = layer1 (V c main_v30) (V c main_v20) (V c main_v6) (V c main_arg6) (V c main_v7) :=
  (dat1 V c).arrAt_eq_of_cover 5 _ (fun t _ => flushed1 V c t) cover1

/-! ## Launch 2: ten blocks of 5000 rows -/

/-- The printed index maps, decided once over the grid: at point `t` the two row windows and the output window sit at
    row block `t`, every parameter window at its one block. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 1) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- Row `p` of window 0's block at point `t` is row `5000 t + p` of its array as the launch finds it. -/
theorem rows2_0 (c : Dev nD) (t : Fin cfg2.N) (p : Fin 5000) (j : Fin 128) (r : Fin 50000) (hr : r.val = 5000 * t.val + p.val) :
    (iblk2 V c 0 t : Vec Ideal S5000x128 .f32) (ix2 p j) = (V c main_v41 : S50000x128.Idx → EReal) (ix2 r j) := by
  obtain ⟨r00, r01, -, -, -, -, -, -, -, -, -⟩ := idx2 t
  unfold iblk2
  rw [View.read_apply]
  show V c main_v41 _ = V c main_v41 _
  congr 1
  funext a
  apply Fin.ext
  match a with
  | ⟨0, _⟩ => show win2_0.index t 0 * 5000 + 1 * p.val = r.val; rw [r00, hr]; omega
  | ⟨1, _⟩ => show win2_0.index t 1 * 128 + 1 * j.val = j.val; rw [r01]; omega

/-- Row `p` of window 1's block at point `t` is row `5000 t + p` of its array as the launch finds it. -/
theorem rows2_1 (c : Dev nD) (t : Fin cfg2.N) (p : Fin 5000) (j : Fin 128) (r : Fin 50000) (hr : r.val = 5000 * t.val + p.val) :
    (iblk2 V c 1 t : Vec Ideal S5000x128 .f32) (ix2 p j) = (V c main_v31 : S50000x128.Idx → EReal) (ix2 r j) := by
  obtain ⟨-, -, r10, r11, -, -, -, -, -, -, -⟩ := idx2 t
  unfold iblk2
  rw [View.read_apply]
  show V c main_v31 _ = V c main_v31 _
  congr 1
  funext a
  apply Fin.ext
  match a with
  | ⟨0, _⟩ => show win2_1.index t 0 * 5000 + 1 * p.val = r.val; rw [r10, hr]; omega
  | ⟨1, _⟩ => show win2_1.index t 1 * 128 + 1 * j.val = j.val; rw [r11]; omega

/-- Window 2's one block is its whole array. -/
theorem whole2_2 (c : Dev nD) (t : Fin cfg2.N) :
    (iblk2 V c 2 t : Vec Ideal S128x128 .f32) = (V c main_v8 : S128x128.Idx → EReal) := by
  obtain ⟨-, -, -, -, w20, w21, -, -, -, -, -⟩ := idx2 t
  funext y
  unfold iblk2
  rw [View.read_apply]
  show V c main_v8 _ = V c main_v8 _
  congr 1
  funext a
  apply Fin.ext
  match a with
  | ⟨0, _⟩ => show win2_2.index t 0 * 128 + 1 * (y 0).val = (y 0).val; rw [w20]; omega
  | ⟨1, _⟩ => show win2_2.index t 1 * 128 + 1 * (y 1).val = (y 1).val; rw [w21]; omega

/-- Window 3's one block is its whole array. -/
theorem whole2_3 (c : Dev nD) (t : Fin cfg2.N) :
    (iblk2 V c 3 t : Vec Ideal S128 .f32) = (V c main_arg9 : S128.Idx → EReal) := by
  obtain ⟨-, -, -, -, -, -, w30, -, -, -, -⟩ := idx2 t
  funext y
  unfold iblk2
  rw [View.read_apply]
  show V c main_arg9 _ = V c main_arg9 _
  congr 1
  funext a
  apply Fin.ext
  match a with
  | ⟨0, _⟩ => show win2_3.index t 0 * 128 + 1 * (y 0).val = (y 0).val; rw [w30]; omega

/-- Window 4's one block is its whole array. -/
theorem whole2_4 (c : Dev nD) (t : Fin cfg2.N) :
    (iblk2 V c 4 t : Vec Ideal S128x128 .f32) = (V c main_v9 : S128x128.Idx → EReal) := by
  obtain ⟨-, -, -, -, -, -, -, w40, w41, -, -⟩ := idx2 t
  funext y
  unfold iblk2
  rw [View.read_apply]
  show V c main_v9 _ = V c main_v9 _
  congr 1
  funext a
  apply Fin.ext
  match a with
  | ⟨0, _⟩ => show win2_4.index t 0 * 128 + 1 * (y 0).val = (y 0).val; rw [w40]; omega
  | ⟨1, _⟩ => show win2_4.index t 1 * 128 + 1 * (y 1).val = (y 1).val; rw [w41]; omega

/-- What point `t` writes back is block `t` of the layer applied to the arrays the launch finds: row `p` of the
    block is the layer's row `5000 t + p`, a function of the same row of the two row arrays and of the parameters. -/
theorem flushed2 (c : Dev nD) (t : Fin cfg2.N) :
    (dat2 V c).flushed 5 t = ((cfg2.win 5).blk t).view.read (Elt Ideal)
      (layer2 (V c main_v41) (V c main_v31) (V c main_v8) (V c main_arg9) (V c main_v9)) := by
  show (cfg2.win 5).cut (grid2.coords t) ((dat2 V c).after 5 t) = _
  rw [after2_5]
  have hN : cfg2.N = 10 := N_2
  have ht : t.val < 10 := by have := t.isLt; omega
  obtain ⟨-, -, -, -, -, -, -, -, -, o0, o1⟩ := idx2 t
  funext y
  obtain ⟨p, q, rfl⟩ : ∃ (p : Fin 5000) (q : Fin 128), y = ix2 p q := ⟨y 0, y 1, eq_ix2 y⟩
  refine (Cert.KernelIdeal.Blocks.block2 (iblk2 V c 0 t) (iblk2 V c 1 t) (iblk2 V c 2 t) (iblk2 V c 3 t) (iblk2 V c 4 t) p q).trans ?_
  rw [View.read_apply]
  have hemb : ((cfg2.win 5).blk t).view.emb (ix2 p q) = ix2 (⟨5000 * t.val + p.val, by have := p.isLt; omega⟩ : Fin 50000) q := by
    funext a
    apply Fin.ext
    match a with
    | ⟨0, _⟩ => show win2_5.index t 0 * 5000 + 1 * p.val = 5000 * t.val + p.val; rw [o0]; omega
    | ⟨1, _⟩ => show win2_5.index t 1 * 128 + 1 * q.val = q.val; rw [o1]; omega
  rw [hemb, layer2_ix2, whole2_2 V c t, whole2_3 V c t, whole2_4 V c t]
  have ha : (fun j : Fin 128 => (iblk2 V c 0 t : Vec Ideal S5000x128 .f32) (ix2 p j))
      = rowOf (V c main_v41) ⟨5000 * t.val + p.val, by have := p.isLt; omega⟩ := funext fun j => rows2_0 V c t p j _ rfl
  have hx : (fun j : Fin 128 => (iblk2 V c 1 t : Vec Ideal S5000x128 .f32) (ix2 p j))
      = rowOf (V c main_v31) ⟨5000 * t.val + p.val, by have := p.isLt; omega⟩ := funext fun j => rows2_1 V c t p j _ rfl
  rw [ha, hx]
  exact (cast_eq _ _).symm

/-- An index of the result array lies in point `t`'s block iff each coordinate lies in the block's range. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v42).slice (win2_5.rect t)).set ↔ _
  rw [View.set_slice_whole, Rect.mem_set_unit]
  exact Iff.rfl

/-- Every row is written back by exactly the point of its row block, `row / 5000`. -/
theorem cover2 (i : S50000x128.Idx) : ∃ t : Fin cfg2.N, (cfg2.win 5).flush t = true ∧ i ∈ ((cfg2.win 5).blk t).view.set := by
  have hi0 : (i 0).val < 50000 := idx2_lt0 i
  have hi1 : (i 1).val < 128 := idx2_lt1 i
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, o0, o1⟩ := idx2 t
  refine ⟨t, flush2_5 t, ?_⟩
  rw [mem_blk2]
  intro a
  match a with
  | ⟨0, _⟩ => show win2_5.index t 0 * 5000 ≤ (i 0).val ∧ (i 0).val < win2_5.index t 0 * 5000 + 5000; rw [o0, ht]; omega
  | ⟨1, _⟩ => show win2_5.index t 1 * 128 ≤ (i 1).val ∧ (i 1).val < win2_5.index t 1 * 128 + 128; rw [o1]; omega

/-- So the launch leaves in its result array the layer applied to the arrays it was entered with. -/
theorem final2 (c : Dev nD) : (dat2 V c).arrAt 5 cfg2.N
    = layer2 (V c main_v41) (V c main_v31) (V c main_v8) (V c main_arg9) (V c main_v9) :=
  (dat2 V c).arrAt_eq_of_cover 5 _ (fun t _ => flushed2 V c t) cover2

end Cert.KernelIdeal.Arrays

end
-- ==== Proof.Net.lean ====
/-
  The whole network as one function of the thirteen arguments.

  Between the layers both programs do the same thing on the host: for every edge gather the source node's row, and
  add it into the destination node's row of a zero array (`agg`: a negative source index is first wrapped by 50000,
  and what an out-of-range index does is whatever the host's gather and scatter-add do — the same on both sides, so
  it is never opened). Each weight matrix is transposed once on the host (`tr`). With those two named, the network
  is the three layers of the row-wise specification applied in turn, each to the aggregation of the previous
  layer's output and to that output itself.
-/
import proofs.«160818_j23210003268198_1_alg».proof.Proof.Gen.ReferenceIdeal.Read
import proofs.«160818_j23210003268198_1_alg».proof.Proof.Spec

noncomputable section

namespace Cert.Sage

open Idealize.ShloMosaic Cert.ReferenceIdeal

/-- The neighbour sum: gather the rows of `H` at the edges' sources, scatter-add them at the edges' destinations. -/
def agg (E : IVec S2x800000 32) (H : FVec Ideal S50000x128 .f32) : FVec Ideal S50000x128 .f32 :=
  Cert.ReferenceIdeal.Read.val_main_v13 (F := Ideal) H E

/-- A weight matrix transposed. -/
def tr (W : FVec Ideal S128x128 .f32) : FVec Ideal S128x128 .f32 :=
  Cert.ReferenceIdeal.Read.val_main_v14 (F := Ideal) W

/-- The first layer's output. -/
def hid0 (x : FVec Ideal S50000x128 .f32) (E : IVec S2x800000 32) (Wl0 : FVec Ideal S128x128 .f32) (bl0 : FVec Ideal S128 .f32)
    (Wr0 : FVec Ideal S128x128 .f32) (g b : FVec Ideal S128 .f32) : FVec Ideal S50000x128 .f32 :=
  layer0 (agg E x) x (tr Wl0) bl0 (tr Wr0) g b

/-- The second layer's output, from the first's. -/
def hid1 (h0 : FVec Ideal S50000x128 .f32) (E : IVec S2x800000 32) (Wl1 : FVec Ideal S128x128 .f32) (bl1 : FVec Ideal S128 .f32)
    (Wr1 : FVec Ideal S128x128 .f32) : FVec Ideal S50000x128 .f32 :=
  layer1 (agg E h0) h0 (tr Wl1) bl1 (tr Wr1)

/-- The last layer's output, from the second's. -/
def out2 (h1 : FVec Ideal S50000x128 .f32) (E : IVec S2x800000 32) (Wl2 : FVec Ideal S128x128 .f32) (bl2 : FVec Ideal S128 .f32)
    (Wr2 : FVec Ideal S128x128 .f32) : FVec Ideal S50000x128 .f32 :=
  layer2 (agg E h1) h1 (tr Wl2) bl2 (tr Wr2)

/-- The network. -/
def net (x : FVec Ideal S50000x128 .f32) (E : IVec S2x800000 32)
    (Wl0 : FVec Ideal S128x128 .f32) (bl0 : FVec Ideal S128 .f32) (Wr0 : FVec Ideal S128x128 .f32)
    (Wl1 : FVec Ideal S128x128 .f32) (bl1 : FVec Ideal S128 .f32) (Wr1 : FVec Ideal S128x128 .f32)
    (Wl2 : FVec Ideal S128x128 .f32) (bl2 : FVec Ideal S128 .f32) (Wr2 : FVec Ideal S128x128 .f32)
    (g b : FVec Ideal S128 .f32) : FVec Ideal S50000x128 .f32 :=
  out2 (hid1 (hid0 x E Wl0 bl0 Wr0 g b) E Wl1 bl1 Wr1) E Wl2 bl2 Wr2

end Cert.Sage

end
-- ==== Proof.Stretch.lean ====
/-
  What the host stretches of the kernel program leave in the buffers each launch reads.

  Before each of the three launches the host prepares that launch's inputs. The first stretch splits the edge array
  into sources and destinations, transposes the six weight matrices, and forms the neighbour sum of the input
  features: gather the rows at the sources, add them into a zero array at the destinations. The second and third
  stretches form the neighbour sum of the previous launch's result in the same way, from the same sources and
  destinations. A buffer a stretch does not write keeps its contents, and a launch changes only its own arrays, so
  every buffer a launch reads is followed back to the stretch that wrote it or to the launch memory. The neighbour
  sums and the transposes are, operation for operation, the reference's: `agg` and `tr`.
-/
import proofs.«160818_j23210003268198_1_alg».proof.Proof.KernelRun
import proofs.«160818_j23210003268198_1_alg».proof.Proof.Net
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The first stretch -/

set_option maxHeartbeats 4000000 in
/-- The neighbour sum of the input features. -/
theorem v1_agg (c : Dev nD) :
    (V1 m ρ c main_v19 : S50000x128.Idx → EReal) = Cert.Sage.agg (m ((c.tc : Thread nD τ).loc main_arg1)) (m ((c.tc : Thread nD τ).loc main_arg0)) := by
  show StableHlo.after hostOps0 (W0 m ρ c) (Proc.devRef .tc main_v19) = _
  after_results
  rfl

/-- The input features are not written. -/
theorem v1_x (c : Dev nD) : (V1 m ρ c main_arg0 : S50000x128.Idx → EReal) = (m ((c.tc : Thread nD τ).loc main_arg0)) := by
  show StableHlo.after hostOps0 (W0 m ρ c) (Proc.devRef .tc main_arg0) = _
  after_results

/-- The first layer's neighbour weight matrix, transposed. -/
theorem v1_wl (c : Dev nD) : (V1 m ρ c main_v4 : S128x128.Idx → EReal) = Cert.Sage.tr (m ((c.tc : Thread nD τ).loc main_arg2)) := by
  show StableHlo.after hostOps0 (W0 m ρ c) (Proc.devRef .tc main_v4) = _
  after_results
  rfl

/-- The first layer's bias is not written. -/
theorem v1_bl (c : Dev nD) : (V1 m ρ c main_arg3 : S128.Idx → EReal) = (m ((c.tc : Thread nD τ).loc main_arg3)) := by
  show StableHlo.after hostOps0 (W0 m ρ c) (Proc.devRef .tc main_arg3) = _
  after_results

/-- The first layer's root weight matrix, transposed. -/
theorem v1_wr (c : Dev nD) : (V1 m ρ c main_v5 : S128x128.Idx → EReal) = Cert.Sage.tr (m ((c.tc : Thread nD τ).loc main_arg4)) := by
  show StableHlo.after hostOps0 (W0 m ρ c) (Proc.devRef .tc main_v5) = _
  after_results
  rfl

/-- The normalisation's scale is not written. -/
theorem v1_g (c : Dev nD) : (V1 m ρ c main_arg11 : S128.Idx → EReal) = (m ((c.tc : Thread nD τ).loc main_arg11)) := by
  show StableHlo.after hostOps0 (W0 m ρ c) (Proc.devRef .tc main_arg11) = _
  after_results

/-- The normalisation's shift is not written. -/
theorem v1_b (c : Dev nD) : (V1 m ρ c main_arg12 : S128.Idx → EReal) = (m ((c.tc : Thread nD τ).loc main_arg12)) := by
  show StableHlo.after hostOps0 (W0 m ρ c) (Proc.devRef .tc main_arg12) = _
  after_results

/-! ### What the first stretch leaves for the later launches -/

/-- The edge sources. -/
theorem W1_src (c : Dev nD) :
    (W1 m ρ c (Proc.devRef .tc main_v1) : S800000.Idx → BitVec 32)
      = Cert.ReferenceIdeal.Read.val_main_v1 (F := Ideal) (m ((c.tc : Thread nD τ).loc main_arg1)) := by
  show StableHlo.after hostOps0 (W0 m ρ c) (Proc.devRef .tc main_v1) = _
  after_results
  rfl

/-- The edge destinations. -/
theorem W1_dst (c : Dev nD) :
    (W1 m ρ c (Proc.devRef .tc main_v3) : S800000.Idx → BitVec 32)
      = Cert.ReferenceIdeal.Read.val_main_v3 (F := Ideal) (m ((c.tc : Thread nD τ).loc main_arg1)) := by
  show StableHlo.after hostOps0 (W0 m ρ c) (Proc.devRef .tc main_v3) = _
  after_results
  rfl

/-- The second layer's neighbour weight matrix, transposed. -/
theorem W1_wl1 (c : Dev nD) :
    (W1 m ρ c (Proc.devRef .tc main_v6) : S128x128.Idx → EReal) = Cert.Sage.tr (m ((c.tc : Thread nD τ).loc main_arg5)) := by
  show StableHlo.after hostOps0 (W0 m ρ c) (Proc.devRef .tc main_v6) = _
  after_results
  rfl

/-- The second layer's root weight matrix, transposed. -/
theorem W1_wr1 (c : Dev nD) :
    (W1 m ρ c (Proc.devRef .tc main_v7) : S128x128.Idx → EReal) = Cert.Sage.tr (m ((c.tc : Thread nD τ).loc main_arg7)) := by
  show StableHlo.after hostOps0 (W0 m ρ c) (Proc.devRef .tc main_v7) = _
  after_results
  rfl

/-- The last layer's neighbour weight matrix, transposed. -/
theorem W1_wl2 (c : Dev nD) :
    (W1 m ρ c (Proc.devRef .tc main_v8) : S128x128.Idx → EReal) = Cert.Sage.tr (m ((c.tc : Thread nD τ).loc main_arg8)) := by
  show StableHlo.after hostOps0 (W0 m ρ c) (Proc.devRef .tc main_v8) = _
  after_results
  rfl

/-- The last layer's root weight matrix, transposed. -/
theorem W1_wr2 (c : Dev nD) :
    (W1 m ρ c (Proc.devRef .tc main_v9) : S128x128.Idx → EReal) = Cert.Sage.tr (m ((c.tc : Thread nD τ).loc main_arg10)) := by
  show StableHlo.after hostOps0 (W0 m ρ c) (Proc.devRef .tc main_v9) = _
  after_results
  rfl

/-- The second layer's bias is not written. -/
theorem W1_bl1 (c : Dev nD) :
    (W1 m ρ c (Proc.devRef .tc main_arg6) : S128.Idx → EReal) = (m ((c.tc : Thread nD τ).loc main_arg6)) := by
  show StableHlo.after hostOps0 (W0 m ρ c) (Proc.devRef .tc main_arg6) = _
  after_results

/-- The last layer's bias is not written. -/
theorem W1_bl2 (c : Dev nD) :
    (W1 m ρ c (Proc.devRef .tc main_arg9) : S128.Idx → EReal) = (m ((c.tc : Thread nD τ).loc main_arg9)) := by
  show StableHlo.after hostOps0 (W0 m ρ c) (Proc.devRef .tc main_arg9) = _
  after_results

/-! ## The second stretch

  The first launch changes only its own arrays; the sources, the destinations and the second layer's parameters are
  none of them. -/

theorem W2_src (c : Dev nD) :
    (W2 m ρ c (Proc.devRef .tc main_v1) : S800000.Idx → BitVec 32)
      = Cert.ReferenceIdeal.Read.val_main_v1 (F := Ideal) (m ((c.tc : Thread nD τ).loc main_arg1)) :=
  (W2_of_ne m ρ c main_v1 (by decide)).trans (W1_src m ρ c)

theorem W2_dst (c : Dev nD) :
    (W2 m ρ c (Proc.devRef .tc main_v3) : S800000.Idx → BitVec 32)
      = Cert.ReferenceIdeal.Read.val_main_v3 (F := Ideal) (m ((c.tc : Thread nD τ).loc main_arg1)) :=
  (W2_of_ne m ρ c main_v3 (by decide)).trans (W1_dst m ρ c)

set_option maxHeartbeats 4000000 in
/-- The neighbour sum of the first launch's result. -/
theorem v3_agg (c : Dev nD) :
    (V3 m ρ c main_v30 : S50000x128.Idx → EReal)
      = Cert.Sage.agg (m ((c.tc : Thread nD τ).loc main_arg1)) (W2 m ρ c (Proc.devRef .tc main_v20)) := by
  show StableHlo.after hostOps1 (W2 m ρ c) (Proc.devRef .tc main_v30) = _
  after_results
  rw [W2_src m ρ c, W2_dst m ρ c]
  rfl

/-- The first launch's result is not written. -/
theorem v3_x (c : Dev nD) :
    (V3 m ρ c main_v20 : S50000x128.Idx → EReal) = W2 m ρ c (Proc.devRef .tc main_v20) := by
  show StableHlo.after hostOps1 (W2 m ρ c) (Proc.devRef .tc main_v20) = _
  after_results

/-- The second layer's neighbour weight matrix, transposed. -/
theorem v3_wl (c : Dev nD) : (V3 m ρ c main_v6 : S128x128.Idx → EReal) = Cert.Sage.tr (m ((c.tc : Thread nD τ).loc main_arg5)) := by
  show StableHlo.after hostOps1 (W2 m ρ c) (Proc.devRef .tc main_v6) = _
  after_results
  exact (W2_of_ne m ρ c main_v6 (by decide)).trans (W1_wl1 m ρ c)

/-- The second layer's bias. -/
theorem v3_bl (c : Dev nD) : (V3 m ρ c main_arg6 : S128.Idx → EReal) = (m ((c.tc : Thread nD τ).loc main_arg6)) := by
  show StableHlo.after hostOps1 (W2 m ρ c) (Proc.devRef .tc main_arg6) = _
  after_results
  exact (W2_of_ne m ρ c main_arg6 (by decide)).trans (W1_bl1 m ρ c)

/-- The second layer's root weight matrix, transposed. -/
theorem v3_wr (c : Dev nD) : (V3 m ρ c main_v7 : S128x128.Idx → EReal) = Cert.Sage.tr (m ((c.tc : Thread nD τ).loc main_arg7)) := by
  show StableHlo.after hostOps1 (W2 m ρ c) (Proc.devRef .tc main_v7) = _
  after_results
  exact (W2_of_ne m ρ c main_v7 (by decide)).trans (W1_wr1 m ρ c)

/-! ## The third stretch

  Neither the second stretch nor the second launch writes the sources, the destinations or the last layer's
  parameters. -/

theorem W4_src (c : Dev nD) :
    (W4 m ρ c (Proc.devRef .tc main_v1) : S800000.Idx → BitVec 32) = Cert.ReferenceIdeal.Read.val_main_v1 (F := Ideal) (m ((c.tc : Thread nD τ).loc main_arg1)) := by
  refine (W4_of_ne m ρ c main_v1 (by decide)).trans ?_
  show StableHlo.after hostOps1 (W2 m ρ c) (Proc.devRef .tc main_v1) = _
  after_results
  exact (W2_of_ne m ρ c main_v1 (by decide)).trans (W1_src m ρ c)

theorem W4_dst (c : Dev nD) :
    (W4 m ρ c (Proc.devRef .tc main_v3) : S800000.Idx → BitVec 32) = Cert.ReferenceIdeal.Read.val_main_v3 (F := Ideal) (m ((c.tc : Thread nD τ).loc main_arg1)) := by
  refine (W4_of_ne m ρ c main_v3 (by decide)).trans ?_
  show StableHlo.after hostOps1 (W2 m ρ c) (Proc.devRef .tc main_v3) = _
  after_results
  exact (W2_of_ne m ρ c main_v3 (by decide)).trans (W1_dst m ρ c)

theorem W4_wl2 (c : Dev nD) :
    (W4 m ρ c (Proc.devRef .tc main_v8) : S128x128.Idx → EReal) = Cert.Sage.tr (m ((c.tc : Thread nD τ).loc main_arg8)) := by
  refine (W4_of_ne m ρ c main_v8 (by decide)).trans ?_
  show StableHlo.after hostOps1 (W2 m ρ c) (Proc.devRef .tc main_v8) = _
  after_results
  exact (W2_of_ne m ρ c main_v8 (by decide)).trans (W1_wl2 m ρ c)

theorem W4_bl2 (c : Dev nD) :
    (W4 m ρ c (Proc.devRef .tc main_arg9) : S128.Idx → EReal) = (m ((c.tc : Thread nD τ).loc main_arg9)) := by
  refine (W4_of_ne m ρ c main_arg9 (by decide)).trans ?_
  show StableHlo.after hostOps1 (W2 m ρ c) (Proc.devRef .tc main_arg9) = _
  after_results
  exact (W2_of_ne m ρ c main_arg9 (by decide)).trans (W1_bl2 m ρ c)

theorem W4_wr2 (c : Dev nD) :
    (W4 m ρ c (Proc.devRef .tc main_v9) : S128x128.Idx → EReal) = Cert.Sage.tr (m ((c.tc : Thread nD τ).loc main_arg10)) := by
  refine (W4_of_ne m ρ c main_v9 (by decide)).trans ?_
  show StableHlo.after hostOps1 (W2 m ρ c) (Proc.devRef .tc main_v9) = _
  after_results
  exact (W2_of_ne m ρ c main_v9 (by decide)).trans (W1_wr2 m ρ c)

set_option maxHeartbeats 4000000 in
/-- The neighbour sum of the second launch's result. -/
theorem v5_agg (c : Dev nD) :
    (V5 m ρ c main_v41 : S50000x128.Idx → EReal)
      = Cert.Sage.agg (m ((c.tc : Thread nD τ).loc main_arg1)) (W4 m ρ c (Proc.devRef .tc main_v31)) := by
  show StableHlo.after hostOps2 (W4 m ρ c) (Proc.devRef .tc main_v41) = _
  after_results
  rw [W4_src m ρ c, W4_dst m ρ c]
  rfl

/-- The second launch's result is not written. -/
theorem v5_x (c : Dev nD) :
    (V5 m ρ c main_v31 : S50000x128.Idx → EReal) = W4 m ρ c (Proc.devRef .tc main_v31) := by
  show StableHlo.after hostOps2 (W4 m ρ c) (Proc.devRef .tc main_v31) = _
  after_results

/-- The last layer's neighbour weight matrix, transposed. -/
theorem v5_wl (c : Dev nD) : (V5 m ρ c main_v8 : S128x128.Idx → EReal) = Cert.Sage.tr (m ((c.tc : Thread nD τ).loc main_arg8)) := by
  show StableHlo.after hostOps2 (W4 m ρ c) (Proc.devRef .tc main_v8) = _
  after_results
  exact W4_wl2 m ρ c

/-- The last layer's bias. -/
theorem v5_bl (c : Dev nD) : (V5 m ρ c main_arg9 : S128.Idx → EReal) = (m ((c.tc : Thread nD τ).loc main_arg9)) := by
  show StableHlo.after hostOps2 (W4 m ρ c) (Proc.devRef .tc main_arg9) = _
  after_results
  exact W4_bl2 m ρ c

/-- The last layer's root weight matrix, transposed. -/
theorem v5_wr (c : Dev nD) : (V5 m ρ c main_v9 : S128x128.Idx → EReal) = Cert.Sage.tr (m ((c.tc : Thread nD τ).loc main_arg10)) := by
  show StableHlo.after hostOps2 (W4 m ρ c) (Proc.devRef .tc main_v9) = _
  after_results
  exact W4_wr2 m ρ c

end Cert.KernelIdeal.Stretch

end
-- ==== Proof.KernelNet.lean ====
/-
  The idealized kernel's result is the network of its thirteen arguments.

  The run's snapshots are followed layer by layer. The first launch is entered with the aggregation of the input, the
  input, the two transposed weight matrices, the bias and the normalisation's gain and shift (the first host stretch),
  so it leaves the first layer of them in its result array; the second host stretch aggregates that array, and the
  second launch, entered with the aggregation, the array and its own parameters, leaves the second layer; the third
  stretch and launch do the same for the last layer, whose result array is the program's result.
-/
import proofs.«160818_j23210003268198_1_alg».proof.Proof.KernelRun
import proofs.«160818_j23210003268198_1_alg».proof.Proof.Arrays
import proofs.«160818_j23210003268198_1_alg».proof.Proof.Stretch
import proofs.«160818_j23210003268198_1_alg».proof.Proof.Net

set_option maxRecDepth 16384

noncomputable section

namespace Cert.KernelIdeal.Layers

open Idealize.ShloMosaic Idealize.ShloMosaic.TcCoe Idealize.SL.Sem
open Cert.KernelIdeal Cert.KernelIdeal.Gen Cert.Sage Cert.KernelIdeal.Stretch Cert.KernelIdeal.Arrays

variable (m : (ℓ : Loc nD τ sig) → Buf (Elt Ideal) ℓ) (ρ : Dev nD → PrngReg)

/-- After the first launch its result array holds the first layer's output. -/
theorem first_layer (c : Dev nD) :
    (W2 m ρ c (Proc.devRef .tc main_v20) : S50000x128.Idx → EReal)
      = hid0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg11)) (m ((c.tc : Thread nD τ).loc main_arg12)) := by
  refine (W2_arr m ρ c 7).trans ?_
  rw [final0 (V1 m ρ) c, v1_agg m ρ c, v1_x m ρ c, v1_wl m ρ c, v1_bl m ρ c, v1_wr m ρ c, v1_g m ρ c, v1_b m ρ c]
  rfl

/-- After the second launch its result array holds the second layer's output. -/
theorem second_layer (c : Dev nD) :
    (W4 m ρ c (Proc.devRef .tc main_v31) : S50000x128.Idx → EReal)
      = hid1 (hid0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg11)) (m ((c.tc : Thread nD τ).loc main_arg12))) (m ((c.tc : Thread nD τ).loc main_arg1)) (m ((c.tc : Thread nD τ).loc main_arg5)) (m ((c.tc : Thread nD τ).loc main_arg6)) (m ((c.tc : Thread nD τ).loc main_arg7)) := by
  refine (W4_arr m ρ c 5).trans ?_
  rw [final1 (V3 m ρ) c, v3_agg m ρ c, v3_x m ρ c, v3_wl m ρ c, v3_bl m ρ c, v3_wr m ρ c, first_layer m ρ c]
  rfl

/-- The program's result array holds the network of the arguments. -/
theorem kernel_result (c : Dev nD) :
    (W6 m ρ c (Proc.devRef .tc main_v42) : S50000x128.Idx → EReal)
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (result_eq m ρ c).trans ?_
  rw [final2 (V5 m ρ) c, v5_agg m ρ c, v5_x m ρ c, v5_wl m ρ c, v5_bl m ρ c, v5_wr m ρ c, second_layer m ρ c]
  rfl

end Cert.KernelIdeal.Layers

end
-- ==== Proof.RefNet.lean ====
/-
  The reference program read against the row-wise specification.

  Each host operation of the reference is read at an index given by its two coordinates, a node `r` and a feature
  column `q`. A product with a transposed weight matrix is the sum over the 128 features of the left row `r` times the
  right column `q`; a bias or an affine parameter broadcast along the nodes is read at `q`; a row sum kept as a
  column is read at `r`. Put together, the value of a layer at `(r, q)` is the specification's expression for row `r`
  and column `q`, term for term and in the same order, so no arithmetic identity is used anywhere: only the
  identification of index functions. The neighbour aggregation and the transposes are never opened: they are the same
  terms on both sides.
-/
import proofs.«160818_j23210003268198_1_alg».proof.Proof.Net
import Idealize.ShloMosaic.Lib.ValueIdx
import Idealize.ShloMosaic.PureOps.Ideal.Laws

noncomputable section

namespace Cert.ReferenceIdeal.Layers

open Cert.ReferenceIdeal Cert.ReferenceIdeal.Read Idealize.ShloMosaic Idealize.ShloMosaic.ValueIdx Cert.Sage
open scoped BigOperators

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 x8 : (⟨S128x128, .f32⟩ : BufTy).Contents (Elt Ideal)) (x9 : (⟨S128, .f32⟩ : BufTy).Contents (Elt Ideal))
  (x10 : (⟨S128x128, .f32⟩ : BufTy).Contents (Elt Ideal)) (x11 x12 : (⟨S128, .f32⟩ : BufTy).Contents (Elt Ideal))

/-! ## The first layer -/

/-- The first layer's neighbour product at node `r`, column `q`. -/
theorem v15_at (r : Fin 50000) (q : Fin 128) :
    val_main_v15 (F := Ideal) x0 x1 x2 (ix2 r q)
      = ∑ k : Fin 128, val_main_v13 (F := Ideal) x0 x1 (ix2 r k) * val_main_v14 (F := Ideal) x2 (ix2 k q) := by
  rw [val_main_v15_apply]
  refine Finset.sum_congr rfl fun k _ => ?_
  have el : lidx_main_v15 (ix2 r q) k = ix2 r k :=
    funext fun a => Fin.ext (by match a with | ⟨0, _⟩ => rfl | ⟨1, _⟩ => rfl)
  have er : ridx_main_v15 (ix2 r q) k = ix2 k q :=
    funext fun a => Fin.ext (by match a with | ⟨0, _⟩ => rfl | ⟨1, _⟩ => rfl)
  rw [el, er]

/-- The first layer's bias, broadcast along the nodes, at column `q`. -/
theorem v17_at (r : Fin 50000) (q : Fin 128) : val_main_v17 (F := Ideal) x3 (ix2 r q) = x3 (ix1 q) := by
  rw [val_main_v17_apply, val_main_v16_apply]
  exact congrArg x3 (funext fun a => Fin.ext (by match a with | ⟨0, _⟩ => rfl))

/-- The first layer's root product at node `r`, column `q`. -/
theorem v20_at (r : Fin 50000) (q : Fin 128) :
    val_main_v20 (F := Ideal) x0 x4 (ix2 r q)
      = ∑ k : Fin 128, x0 (ix2 r k) * val_main_v19 (F := Ideal) x4 (ix2 k q) := by
  rw [val_main_v20_apply]
  refine Finset.sum_congr rfl fun k _ => ?_
  have el : lidx_main_v20 (ix2 r q) k = ix2 r k :=
    funext fun a => Fin.ext (by match a with | ⟨0, _⟩ => rfl | ⟨1, _⟩ => rfl)
  have er : ridx_main_v20 (ix2 r q) k = ix2 k q :=
    funext fun a => Fin.ext (by match a with | ⟨0, _⟩ => rfl | ⟨1, _⟩ => rfl)
  rw [el, er]

/-- Layer 0 before its activation: the neighbour product, the bias, then the root product, which is `conv`. -/
theorem v21_at (r : Fin 50000) (q : Fin 128) :
    val_main_v21 (F := Ideal) x0 x1 x2 x3 x4 (ix2 r q)
      = conv (rowOf (val_main_v13 (F := Ideal) x0 x1) r) (rowOf (x0) r) (val_main_v14 (F := Ideal) x2) x3 (val_main_v19 (F := Ideal) x4) q := by
  rw [val_main_v21_apply, val_main_v18_apply, v15_at, v17_at, v20_at]
  rfl

/-- The row sum of the pre-normalisation array: the reduction starts from the zero word, which is `0`. -/
theorem v22_at (r : Fin 50000) :
    val_main_v22 (F := Ideal) x0 x1 x2 x3 x4 (ix1 r) = ∑ k : Fin 128, val_main_v21 (F := Ideal) x0 x1 x2 x3 x4 (ix2 r k) := by
  rw [val_main_v22_apply, val_main_cst_1_apply, Ideal.ofBits_def, Ideal.ofBits_zero_f32, zero_add]
  refine Finset.sum_congr rfl fun k _ => ?_
  exact congrArg _ (funext fun a => Fin.ext (by match a with | ⟨0, _⟩ => rfl | ⟨1, _⟩ => rfl))

/-- The row mean, kept as a column. -/
theorem v25_at (r : Fin 50000) (z : Fin 1) :
    val_main_v25 (F := Ideal) x0 x1 x2 x3 x4 (ix2 r z)
      = Ideal.div (∑ k : Fin 128, val_main_v21 (F := Ideal) x0 x1 x2 x3 x4 (ix2 r k)) (Ideal.ofBits .f32 0x43000000#32) := by
  rw [val_main_v25_apply, val_main_v23_apply, val_main_v24_apply, val_main_cst_2_apply]
  have e : idx_main_v23 (ix2 r z) = ix1 r := funext fun a => Fin.ext (by match a with | ⟨0, _⟩ => rfl)
  rw [e, v22_at]
  rfl

/-- The centred array (as the variance reads it): each entry minus its row's mean. -/
theorem v27_at (r : Fin 50000) (q : Fin 128) :
    val_main_v27 (F := Ideal) x0 x1 x2 x3 x4 (ix2 r q) = centred (rowOf (val_main_v21 (F := Ideal) x0 x1 x2 x3 x4) r) q := by
  rw [val_main_v27_apply, val_main_v26_apply]
  have e : idx_main_v26 (ix2 r q) = ix2 r (0 : Fin 1) := funext fun a => Fin.ext (by match a with | ⟨0, _⟩ => rfl | ⟨1, _⟩ => rfl)
  rw [e, v25_at]
  rfl

/-- The centred array (as the normalisation reads it): the same expression again. -/
theorem v34_at (r : Fin 50000) (q : Fin 128) :
    val_main_v34 (F := Ideal) x0 x1 x2 x3 x4 (ix2 r q) = centred (rowOf (val_main_v21 (F := Ideal) x0 x1 x2 x3 x4) r) q := by
  rw [val_main_v34_apply, val_main_v33_apply]
  have e : idx_main_v33 (ix2 r q) = ix2 r (0 : Fin 1) := funext fun a => Fin.ext (by match a with | ⟨0, _⟩ => rfl | ⟨1, _⟩ => rfl)
  rw [e, v25_at]
  rfl

/-- The row sum of the squares of the centred array. -/
theorem v29_at (r : Fin 50000) :
    val_main_v29 (F := Ideal) x0 x1 x2 x3 x4 (ix1 r)
      = ∑ k : Fin 128, centred (rowOf (val_main_v21 (F := Ideal) x0 x1 x2 x3 x4) r) k * centred (rowOf (val_main_v21 (F := Ideal) x0 x1 x2 x3 x4) r) k := by
  rw [val_main_v29_apply, val_main_cst_3_apply, Ideal.ofBits_def, Ideal.ofBits_zero_f32, zero_add]
  refine Finset.sum_congr rfl fun k _ => ?_
  have e : idx_main_v29 (ix1 r) k = ix2 r k := funext fun a => Fin.ext (by match a with | ⟨0, _⟩ => rfl | ⟨1, _⟩ => rfl)
  rw [e, val_main_v28_apply, v27_at]
  rfl

/-- The reciprocal square root of the row's variance plus `ε`, kept as a column. -/
theorem v37_at (r : Fin 50000) (z : Fin 1) :
    val_main_v37 (F := Ideal) x0 x1 x2 x3 x4 (ix2 r z)
      = Ideal.rsqrt (Ideal.div (∑ k : Fin 128, centred (rowOf (val_main_v21 (F := Ideal) x0 x1 x2 x3 x4) r) k * centred (rowOf (val_main_v21 (F := Ideal) x0 x1 x2 x3 x4) r) k)
            (Ideal.ofBits .f32 0x43000000#32) + Ideal.ofBits .f32 0x3727C5AC#32) := by
  rw [val_main_v37_apply, val_main_v36_apply, val_main_v32_apply, val_main_v30_apply, val_main_v31_apply,
    val_main_cst_4_apply, val_main_v35_apply, val_main_cst_5_apply]
  have e : idx_main_v30 (ix2 r z) = ix1 r := funext fun a => Fin.ext (by match a with | ⟨0, _⟩ => rfl)
  rw [e, v29_at]
  rfl

/-- The normalisation's scale, broadcast along the nodes, at column `q`. -/
theorem v41_at (r : Fin 50000) (q : Fin 128) : val_main_v41 (F := Ideal) x11 (ix2 r q) = x11 (ix1 q) := by
  rw [val_main_v41_apply, val_main_v40_apply]
  exact congrArg x11 (funext fun a => Fin.ext (by match a with | ⟨0, _⟩ => rfl))

/-- The normalisation's shift, broadcast along the nodes, at column `q`. -/
theorem v44_at (r : Fin 50000) (q : Fin 128) : val_main_v44 (F := Ideal) x12 (ix2 r q) = x12 (ix1 q) := by
  rw [val_main_v44_apply, val_main_v43_apply]
  exact congrArg x12 (funext fun a => Fin.ext (by match a with | ⟨0, _⟩ => rfl))

/-- The normalised array: centred entry times the row's factor, times the scale, plus the shift, which is `normed`. -/
theorem v45_at (r : Fin 50000) (q : Fin 128) :
    val_main_v45 (F := Ideal) x0 x1 x2 x3 x4 x11 x12 (ix2 r q) = normed (rowOf (val_main_v21 (F := Ideal) x0 x1 x2 x3 x4) r) x11 x12 q := by
  rw [val_main_v45_apply, val_main_v42_apply, val_main_v39_apply, val_main_v38_apply]
  have e : idx_main_v38 (ix2 r q) = ix2 r (0 : Fin 1) := funext fun a => Fin.ext (by match a with | ⟨0, _⟩ => rfl | ⟨1, _⟩ => rfl)
  rw [e, v34_at, v37_at, v41_at, v44_at]
  rfl

/-- The first layer's output: the maximum of the normalised entry and the zero word. -/
theorem v46_at (r : Fin 50000) (q : Fin 128) :
    val_main_v46 (F := Ideal) x0 x1 x2 x3 x4 x11 x12 (ix2 r q) = relu (normed (rowOf (val_main_v21 (F := Ideal) x0 x1 x2 x3 x4) r) x11 x12 q) := by
  rw [val_main_v46_apply, v45_at, val_main_call0_v0_apply, val_main_call0_cst_apply]
  rfl

/-- The first layer of the reference is the specification's first layer of the aggregated input and the input. -/
theorem layer0_eq :
    val_main_v46 (F := Ideal) x0 x1 x2 x3 x4 x11 x12
      = layer0 (val_main_v13 (F := Ideal) x0 x1) x0 (val_main_v14 (F := Ideal) x2) x3 (val_main_v19 (F := Ideal) x4) x11 x12 := by
  funext i
  obtain ⟨r, q, rfl⟩ : ∃ (r : Fin 50000) (q : Fin 128), i = ix2 r q := ⟨_, _, eq_ix2 i⟩
  have hrow : rowOf (val_main_v21 (F := Ideal) x0 x1 x2 x3 x4) r
      = conv (rowOf (val_main_v13 (F := Ideal) x0 x1) r) (rowOf x0 r) (val_main_v14 (F := Ideal) x2) x3 (val_main_v19 (F := Ideal) x4) :=
    funext fun k => v21_at x0 x1 x2 x3 x4 r k
  rw [layer0_ix2, v46_at, hrow]

/-! ## The second layer -/

/-- The second layer's neighbour product at node `r`, column `q`. -/
theorem v58_at (r : Fin 50000) (q : Fin 128) :
    val_main_v58 (F := Ideal) x0 x1 x2 x3 x4 x5 x11 x12 (ix2 r q)
      = ∑ k : Fin 128, val_main_v56 (F := Ideal) x0 x1 x2 x3 x4 x11 x12 (ix2 r k) * val_main_v57 (F := Ideal) x5 (ix2 k q) := by
  rw [val_main_v58_apply]
  refine Finset.sum_congr rfl fun k _ => ?_
  have el : lidx_main_v58 (ix2 r q) k = ix2 r k :=
    funext fun a => Fin.ext (by match a with | ⟨0, _⟩ => rfl | ⟨1, _⟩ => rfl)
  have er : ridx_main_v58 (ix2 r q) k = ix2 k q :=
    funext fun a => Fin.ext (by match a with | ⟨0, _⟩ => rfl | ⟨1, _⟩ => rfl)
  rw [el, er]

/-- The second layer's bias, broadcast along the nodes, at column `q`. -/
theorem v60_at (r : Fin 50000) (q : Fin 128) : val_main_v60 (F := Ideal) x6 (ix2 r q) = x6 (ix1 q) := by
  rw [val_main_v60_apply, val_main_v59_apply]
  exact congrArg x6 (funext fun a => Fin.ext (by match a with | ⟨0, _⟩ => rfl))

/-- The second layer's root product at node `r`, column `q`. -/
theorem v63_at (r : Fin 50000) (q : Fin 128) :
    val_main_v63 (F := Ideal) x0 x1 x2 x3 x4 x7 x11 x12 (ix2 r q)
      = ∑ k : Fin 128, val_main_v46 (F := Ideal) x0 x1 x2 x3 x4 x11 x12 (ix2 r k) * val_main_v62 (F := Ideal) x7 (ix2 k q) := by
  rw [val_main_v63_apply]
  refine Finset.sum_congr rfl fun k _ => ?_
  have el : lidx_main_v63 (ix2 r q) k = ix2 r k :=
    funext fun a => Fin.ext (by match a with | ⟨0, _⟩ => rfl | ⟨1, _⟩ => rfl)
  have er : ridx_main_v63 (ix2 r q) k = ix2 k q :=
    funext fun a => Fin.ext (by match a with | ⟨0, _⟩ => rfl | ⟨1, _⟩ => rfl)
  rw [el, er]

/-- Layer 1 before its activation: the neighbour product, the bias, then the root product, which is `conv`. -/
theorem v64_at (r : Fin 50000) (q : Fin 128) :
    val_main_v64 (F := Ideal) x0 x1 x2 x3 x4 x5 x6 x7 x11 x12 (ix2 r q)
      = conv (rowOf (val_main_v56 (F := Ideal) x0 x1 x2 x3 x4 x11 x12) r) (rowOf (val_main_v46 (F := Ideal) x0 x1 x2 x3 x4 x11 x12) r) (val_main_v57 (F := Ideal) x5) x6 (val_main_v62 (F := Ideal) x7) q := by
  rw [val_main_v64_apply, val_main_v61_apply, v58_at, v60_at, v63_at]
  rfl

/-- The second layer of the reference is the specification's second layer of its two input arrays. -/
theorem layer1_eq :
    val_main_v65 (F := Ideal) x0 x1 x2 x3 x4 x5 x6 x7 x11 x12
      = layer1 (val_main_v56 (F := Ideal) x0 x1 x2 x3 x4 x11 x12) (val_main_v46 (F := Ideal) x0 x1 x2 x3 x4 x11 x12) (val_main_v57 (F := Ideal) x5) x6 (val_main_v62 (F := Ideal) x7) := by
  funext i
  obtain ⟨r, q, rfl⟩ : ∃ (r : Fin 50000) (q : Fin 128), i = ix2 r q := ⟨_, _, eq_ix2 i⟩
  rw [layer1_ix2, val_main_v65_apply, v64_at, val_main_call1_v0_apply, val_main_call1_cst_apply]
  rfl

/-! ## The last layer -/

/-- The last layer's neighbour product at node `r`, column `q`. -/
theorem v77_at (r : Fin 50000) (q : Fin 128) :
    val_main_v77 (F := Ideal) x0 x1 x2 x3 x4 x5 x6 x7 x8 x11 x12 (ix2 r q)
      = ∑ k : Fin 128, val_main_v75 (F := Ideal) x0 x1 x2 x3 x4 x5 x6 x7 x11 x12 (ix2 r k) * val_main_v76 (F := Ideal) x8 (ix2 k q) := by
  rw [val_main_v77_apply]
  refine Finset.sum_congr rfl fun k _ => ?_
  have el : lidx_main_v77 (ix2 r q) k = ix2 r k :=
    funext fun a => Fin.ext (by match a with | ⟨0, _⟩ => rfl | ⟨1, _⟩ => rfl)
  have er : ridx_main_v77 (ix2 r q) k = ix2 k q :=
    funext fun a => Fin.ext (by match a with | ⟨0, _⟩ => rfl | ⟨1, _⟩ => rfl)
  rw [el, er]

/-- The last layer's bias, broadcast along the nodes, at column `q`. -/
theorem v79_at (r : Fin 50000) (q : Fin 128) : val_main_v79 (F := Ideal) x9 (ix2 r q) = x9 (ix1 q) := by
  rw [val_main_v79_apply, val_main_v78_apply]
  exact congrArg x9 (funext fun a => Fin.ext (by match a with | ⟨0, _⟩ => rfl))

/-- The last layer's root product at node `r`, column `q`. -/
theorem v82_at (r : Fin 50000) (q : Fin 128) :
    val_main_v82 (F := Ideal) x0 x1 x2 x3 x4 x5 x6 x7 x10 x11 x12 (ix2 r q)
      = ∑ k : Fin 128, val_main_v65 (F := Ideal) x0 x1 x2 x3 x4 x5 x6 x7 x11 x12 (ix2 r k) * val_main_v81 (F := Ideal) x10 (ix2 k q) := by
  rw [val_main_v82_apply]
  refine Finset.sum_congr rfl fun k _ => ?_
  have el : lidx_main_v82 (ix2 r q) k = ix2 r k :=
    funext fun a => Fin.ext (by match a with | ⟨0, _⟩ => rfl | ⟨1, _⟩ => rfl)
  have er : ridx_main_v82 (ix2 r q) k = ix2 k q :=
    funext fun a => Fin.ext (by match a with | ⟨0, _⟩ => rfl | ⟨1, _⟩ => rfl)
  rw [el, er]

/-- Layer 2 before its activation: the neighbour product, the bias, then the root product, which is `conv`. -/
theorem v83_at (r : Fin 50000) (q : Fin 128) :
    val_main_v83 (F := Ideal) x0 x1 x2 x3 x4 x5 x6 x7 x8 x9 x10 x11 x12 (ix2 r q)
      = conv (rowOf (val_main_v75 (F := Ideal) x0 x1 x2 x3 x4 x5 x6 x7 x11 x12) r) (rowOf (val_main_v65 (F := Ideal) x0 x1 x2 x3 x4 x5 x6 x7 x11 x12) r) (val_main_v76 (F := Ideal) x8) x9 (val_main_v81 (F := Ideal) x10) q := by
  rw [val_main_v83_apply, val_main_v80_apply, v77_at, v79_at, v82_at]
  rfl

/-- The last layer of the reference is the specification's last layer of its two input arrays. -/
theorem layer2_eq :
    val_main_v83 (F := Ideal) x0 x1 x2 x3 x4 x5 x6 x7 x8 x9 x10 x11 x12
      = layer2 (val_main_v75 (F := Ideal) x0 x1 x2 x3 x4 x5 x6 x7 x11 x12) (val_main_v65 (F := Ideal) x0 x1 x2 x3 x4 x5 x6 x7 x11 x12) (val_main_v76 (F := Ideal) x8) x9 (val_main_v81 (F := Ideal) x10) := by
  funext i
  obtain ⟨r, q, rfl⟩ : ∃ (r : Fin 50000) (q : Fin 128), i = ix2 r q := ⟨_, _, eq_ix2 i⟩
  rw [layer2_ix2, v83_at]

/-! ## Between the layers

  The second and third aggregations prepare their edge indices and their zero array by operations of their own, but
  these are the same operations on the same arguments as the first's, so each is the first aggregation applied to
  the previous layer's output; every transpose is the one transpose applied to its own matrix. -/

theorem v56_eq : val_main_v56 (F := Ideal) x0 x1 x2 x3 x4 x11 x12 = agg x1 (val_main_v46 (F := Ideal) x0 x1 x2 x3 x4 x11 x12) := rfl

theorem v75_eq : val_main_v75 (F := Ideal) x0 x1 x2 x3 x4 x5 x6 x7 x11 x12 = agg x1 (val_main_v65 (F := Ideal) x0 x1 x2 x3 x4 x5 x6 x7 x11 x12) := rfl

/-- The three layers in turn are the network. -/
theorem net_eq :
    val_main_v83 (F := Ideal) x0 x1 x2 x3 x4 x5 x6 x7 x8 x9 x10 x11 x12 = net x0 x1 x2 x3 x4 x5 x6 x7 x8 x9 x10 x11 x12 := by
  have e0 : val_main_v46 (F := Ideal) x0 x1 x2 x3 x4 x11 x12 = hid0 x0 x1 x2 x3 x4 x11 x12 := layer0_eq x0 x1 x2 x3 x4 x11 x12
  have e1 : val_main_v65 (F := Ideal) x0 x1 x2 x3 x4 x5 x6 x7 x11 x12 = hid1 (hid0 x0 x1 x2 x3 x4 x11 x12) x1 x5 x6 x7 := by
    rw [layer1_eq, v56_eq, e0]
    rfl
  rw [layer2_eq, v75_eq, e1]
  rfl

/-- The reference program's result is the network of its thirteen arguments. -/
theorem reference_eq (m : (ℓ : Loc nD τ sig) → Buf (Elt Ideal) ℓ) (c : Dev nD) :
    Cert.ReferenceIdeal.Value.res_main_v83 (F := Ideal) m c
      = Cert.Sage.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) :=
  (val_main_v83_eq m c).trans (net_eq _ _ _ _ _ _ _ _ _ _ _ _ _)

end Cert.ReferenceIdeal.Layers

end
-- ==== Proof.lean ====
/-
  A three-layer GraphSAGE network on 50000 nodes with 128 features, the kernel against its reference, over the
  extended reals.

  Both programs compute, layer after layer, for every node: the sum of its in-neighbours' rows (gathered and
  scatter-added on the host in both programs), then `(neighbours · WlT + bl) + self · WrT`; the first layer then
  normalises each row (subtract the mean, scale by the reciprocal square root of the variance plus ε, apply gain and
  shift) and takes the maximum with zero, the second takes the maximum with zero, the third nothing. The kernel does
  the per-node part in three launches over ten blocks of 5000 rows with its operands narrowed to bf16, which on the
  extended reals is the identity; the reference does it with whole-array operations. Read at a node and a feature,
  the two sides are the same expression with the same constants in the same order, so the result arrays are equal
  without any arithmetic law and without using that the inputs are finite.

  The pieces: `Spec` (a layer's row function), `Net` (the network over the shared aggregation), `RefNet` (the
  reference's result is the network), `Blocks` (a launch's block is the layer's rows), `Arrays` (ten blocks make the
  whole-array layer), `Stretch` (what the host stretches hand each launch), `KernelRun` and `KernelNet` (the kernel's
  run ends with the network in its result array). The three frames are the generated ones; the idealization
  rewrote nothing, so its conjunct is trivial.
-/
import proofs.«160818_j23210003268198_1_alg».proof.Defs
import proofs.«160818_j23210003268198_1_alg».proof.Proof.Gen.Kernel
import proofs.«160818_j23210003268198_1_alg».proof.Proof.Gen.Kernel.Frame
import proofs.«160818_j23210003268198_1_alg».proof.Proof.Gen.KernelIdeal
import proofs.«160818_j23210003268198_1_alg».proof.Proof.Gen.KernelIdeal.Frame
import proofs.«160818_j23210003268198_1_alg».proof.Proof.Gen.ReferenceIdeal
import proofs.«160818_j23210003268198_1_alg».proof.Proof.Gen.Pre_finite_inputs
import proofs.«160818_j23210003268198_1_alg».proof.Proof.Gen.ReferenceIdeal.Run
import proofs.«160818_j23210003268198_1_alg».proof.Proof.Gen.ReferenceIdeal.Read
import proofs.«160818_j23210003268198_1_alg».proof.Proof.KernelNet
import proofs.«160818_j23210003268198_1_alg».proof.Proof.RefNet

noncomputable section

namespace Cert.Proof

open Idealize.ShloMosaic Idealize.ShloMosaic.TcCoe Idealize.SL.Sem

/-- The kernel as printed runs and leaves its arguments unchanged. -/
theorem frame_kernel : Cert.frame_Kernel :=
  fun m ρ _ => Cert.Kernel.Gen.frame m ρ

/-- So does its idealization. -/
theorem frame_kernel_ideal : Cert.frame_KernelIdeal :=
  fun m ρ _ => Cert.KernelIdeal.Gen.frame m ρ

/-- The reference runs and leaves its arguments unchanged: its run with the result dropped. -/
theorem frame_reference_ideal : Cert.frame_ReferenceIdeal :=
  fun m ρ _ => (θ_run Cert.ReferenceIdeal.defs _ _).mono (fun _ h c => (h c).2) (Cert.ReferenceIdeal.Value.run (F := Ideal) m ρ)

/-- From memories that agree on the thirteen arguments both programs end with the network of those arguments in
    their result arrays. -/
theorem algebraic : Cert.algebraic_KernelIdeal_ReferenceIdeal := by
  intro m ρ m' ρ' _ hagree
  refine ⟨fun c => Cert.KernelIdeal.Gen.W6 m ρ c (Proc.devRef .tc Cert.KernelIdeal.main_v42),
    Cert.KernelIdeal.Layers.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Layers.reference_eq m' c, a0, a1, a2, a3, a4, a5, a6, a7, a8, a9, a10, a11, a12]
  exact (Cert.KernelIdeal.Layers.kernel_result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
